-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S10000x128 : Shape := ⟨2, ![10000, 128]⟩
abbrev S1700000x128 : Shape := ⟨2, ![1700000, 128]⟩
abbrev S1x128 : Shape := ⟨2, ![1, 128]⟩
abbrev S12800000 : Shape := ⟨1, ![12800000]⟩

abbrev nBuf : Space → Nat
  | .hbm => 76
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S100000x128, .f32⟩
  | .hbm, ⟨30, _⟩ => ⟨S100000x128, .bf16⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000x128, .bf16⟩
  | .hbm, ⟨40, _⟩ => ⟨S1700000x128, .f32⟩
  | .hbm, ⟨41, _⟩ => ⟨S_, .f32⟩
  | .hbm, ⟨42, _⟩ => ⟨S100000x128, .f32⟩
  | .hbm, ⟨43, _⟩ => ⟨S1700000x1, .i32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S100000x128, .f32⟩
  | .hbm, ⟨52, _⟩ => ⟨S100000x128, .f32⟩
  | .hbm, ⟨53, _⟩ => ⟨S100000x128, .f32⟩
  | .hbm, ⟨54, _⟩ => ⟨S100000x128, .f32⟩
  | .hbm, ⟨55, _⟩ => ⟨S100000x128, .bf16⟩
  | .hbm, ⟨56, _⟩ => ⟨S_, .i32⟩
  | .hbm, ⟨57, _⟩ => ⟨S1700000, .i32⟩
  | .hbm, ⟨58, _⟩ => ⟨S1700000, .i1⟩
  | .hbm, ⟨59, _⟩ => ⟨S_, .i32⟩
  | .hbm, ⟨60, _⟩ => ⟨S1700000, .i32⟩
  | .hbm, ⟨61, _⟩ => ⟨S1700000, .i32⟩
  | .hbm, ⟨62, _⟩ => ⟨S1700000, .i32⟩
  | .hbm, ⟨63, _⟩ => ⟨S1700000x1, .i32⟩
  | .hbm, ⟨64, _⟩ => ⟨S1700000x128, .bf16⟩
  | .hbm, ⟨65, _⟩ => ⟨S1700000x128, .f32⟩
  | .hbm, ⟨66, _⟩ => ⟨S_, .f32⟩
  | .hbm, ⟨67, _⟩ => ⟨S100000x128, .f32⟩
  | .hbm, ⟨68, _⟩ => ⟨S1700000x1, .i32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S12800000, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .bf16⟩
  | .local _ .vmem, ⟨4, _⟩ => ⟨S10000x128, .bf16⟩
  | .local _ .vmem, ⟨5, _⟩ => ⟨S10000x128, .f32⟩
  | .local _ .vmem, ⟨6, _⟩ => ⟨S10000x128, .f32⟩
  | .local _ .vmem, ⟨7, _⟩ => ⟨S128x128, .f32⟩
  | .local _ .vmem, ⟨8, _⟩ => ⟨S10000x128, .bf16⟩
  | .local _ .vmem, ⟨9, _⟩ => ⟨S10000x128, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_call1_cst : Ref sig .tc := ⟨.hbm, 50, rfl⟩
abbrev main_call1_v0 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_5 : Ref sig .tc := ⟨.hbm, 56, rfl⟩
abbrev main_v39 : Ref sig .tc := ⟨.hbm, 57, rfl⟩
abbrev main_v40 : Ref sig .tc := ⟨.hbm, 58, rfl⟩
abbrev main_c_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_7 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S10000x128_S10000x128_0_0 : (Rect.unit (s := S10000x128) ![0, 0] S10000x128.size inb_S10000x128_S10000x128_0_0).PackedRows (EltTy.packing .bf16)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S100000x128_S12800000 : S100000x128.ShapeCasts S12800000
  scatter_S100000_S1700000x1_S1700000_n_0_0_1_wf : ScatterDims.WF S100000 S1700000x1 S1700000 [] [0] [0] 1
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .bf16 = 32 ∨ (Rect.block (s := S100000x128) S10000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .bf16 = 32 ∨ (Rect.block (s := S100000x128) S10000x128.size (cc1_transform_2 i) (hinb1_2 i)).WholeWords (EltTy.packing .bf16)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_v17) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S12800000 : Shape := ⟨1, ![12800000]⟩

abbrev nBuf : Space → Nat
  | .hbm => 123
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x128, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S1700000, .f32⟩
  | .hbm, ⟨71, _⟩ => ⟨S_, .f32⟩
  | .hbm, ⟨72, _⟩ => ⟨S100000, .f32⟩
  | .hbm, ⟨73, _⟩ => ⟨S1700000x1, .i32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .i1⟩
  | .hbm, ⟨78, _⟩ => ⟨S100000, .f32⟩
  | .hbm, ⟨79, _⟩ => ⟨S_, .f32⟩
  | .hbm, ⟨80, _⟩ => ⟨S_, .f32⟩
  | .hbm, ⟨81, _⟩ => ⟨S100000, .f32⟩
  | .hbm, ⟨82, _⟩ => ⟨S100000, .f32⟩
  | .hbm, ⟨83, _⟩ => ⟨S100000x128, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000, .f32⟩
  | .hbm, ⟨102, _⟩ => ⟨S1700000, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x128, .f32⟩
  | .hbm, ⟨112, _⟩ => ⟨S1700000x1, .f32⟩
  | .hbm, ⟨113, _⟩ => ⟨S1700000x128, .f32⟩
  | .hbm, ⟨114, _⟩ => ⟨S1700000x128, .f32⟩
  | .hbm, ⟨115, _⟩ => ⟨S_, .f32⟩
  | .hbm, ⟨116, _⟩ => ⟨S100000x128, .f32⟩
  | .hbm, ⟨117, _⟩ => ⟨S1700000x1, .i32⟩
  | .hbm, ⟨118, _⟩ => ⟨S100000x128, .f32⟩
  | .hbm, ⟨119, _⟩ => ⟨S1x128, .f32⟩
  | .hbm, ⟨120, _⟩ => ⟨S100000x128, .f32⟩
  | .hbm, ⟨121, _⟩ => ⟨S100000x128, .f32⟩
  | .hbm, ⟨122, _⟩ => ⟨S12800000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_call2_v0 : Ref sig .tc := ⟨.hbm, 80, rfl⟩
abbrev main_call2_v1 : Ref sig .tc := ⟨.hbm, 81, rfl⟩
abbrev main_v55 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S100000x128_S12800000 : S100000x128.ShapeCasts S12800000
  scatter_S100000_S1700000x1_S1700000_n_0_0_1_wf : ScatterDims.WF S100000 S1700000x1 S1700000 [] [0] [0] 1
  dot_S100000x128_S128x128_S100000x128_1_0_0_1_n_n_wf : DotDims.WF S100000x128 S128x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KerRun.lean ====
/-
  The kernel's run, with its result named.

  @main is nine segments: stretches of host operations around the two Pallas calls. The buffer contents at each
  boundary are a fold from the launch memory (`W0` … `W9`): a stretch applies its operations, a call replaces its
  arrays by what its write-backs leave. Every weakly fair execution terminates, nothing faulting, with every
  unscoped buffer at the last boundary's contents `W9`; read at the result buffer that is the kernel's value, and
  at the argument buffers it is the launch memory, since nothing writes them.
-/
import proofs.«170837_j10694468567653_2_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates with the result buffer at the last boundary's contents and the
    argument arrays as launched. -/
theorem run_named : θ_run defs (onTc (τ := τ) (main (F := F))) ⟨m, fun _ => 0, ρ⟩ (fun r => ∀ c : Dev nD,
      r.2.mem ((c.tc : Thread nD τ).loc main_v55) = W9 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v55 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Val

end
-- ==== Proof.LibPlainDot.lean ====
/-
  A plain matrix product's contraction, re-indexed by the contracted coordinate.

  A contraction record over `[M, K] × [K, N] → [M, N]` with ONE contracted axis sums over indices of a
  rank-one shape; what a value proof wants is the sum over `k : Fin K` of the left operand at `(row, k)`
  times the right at `(k, column)`. The record enters only through six facts, each decidable at a literal
  record: its contraction shape has rank one and extent `K`, and the operand index at an output index and a
  contraction index has the expected coordinates.
-/
import Idealize.ShloMosaic.PureOps.Ideal.Laws
import Idealize.ShloMosaic.Lib.ValueIdx

noncomputable section

namespace Cert.Lib.PlainDot

open Idealize.ShloMosaic Idealize.ShloMosaic.ValueIdx

/-- The sum over a one-axis contraction, as the sum over `k : Fin K` of left `(j 0, k)` times right `(k, j 1)`. -/
theorem sum_rows_cols {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact hl0 _ _
    | ⟨1, _⟩ => exact (hl1 _ _).trans hk)
  have er : D.rhsIdx j ((contrEquiv1 D K hr hs).symm k) = ix2 k (j 1) := funext fun a => Fin.ext (by
    match a with
    | ⟨0, _⟩ => exact (hr0 _ _).trans hk
    | ⟨1, _⟩ => exact hr1 _ _)
  exact congrArg₂ (· * ·) (congrArg l el) (congrArg r er)

end Cert.Lib.PlainDot

end
-- ==== Proof.LibMatProd.lean ====
/-
  A plain matrix product, and the two operations that compute it.

  `prod l r` is rows times columns: entry `(i, j)` is the sum over `k : Fin K` of `l (i, k) * r (k, j)` on the
  extended reals. Both a kernel's `tpu.matmul` into a ZERO accumulator and the host's `dot_general`, over a
  contraction record for `[M, K] × [K, N] → [M, N]` with one contracted axis, are that function at the ideal
  values (the accumulator adds zero; the host's product has none). The record enters through the same six
  facts as `Cert.Lib.PlainDot.sum_rows_cols`, each by computation at a literal record. The operands' float
  formats are free: at the ideal values a change of format is the identity, so a product fed rounded operands
  is the product of the operands.

  Reading a product of a BLOCK of rows: entry `(p, q)` of `prod` of rows `T·B … T·B + B − 1` of `l` with the
  right operand is entry `(T·B + p, q)` of `prod l r` (`prod_rows`), which is what makes a product computed
  block of rows by block of rows the whole product.
-/
import Idealize.ShloMosaic.PureOps.Ideal.Laws
import Idealize.ShloMosaic.Lib.ValueIdx
import proofs.«170837_j10694468567653_2_alg».proof.Proof.LibPlainDot

noncomputable section

namespace Cert.Lib.MatProd

open Idealize.ShloMosaic Idealize.ShloMosaic.ValueIdx

/-- Rows times columns, on the extended reals. -/
def prod {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem prod_apply {M K N : ℕ} (l : (⟨2, ![M, K]⟩ : Shape).Idx → EReal) (r : (⟨2, ![K, N]⟩ : Shape).Idx → EReal)
    (i : Fin M) (j : Fin N) : prod l r (ix2 i j) = ∑ k : Fin K, l (ix2 i k) * r (ix2 k j) := rfl

/-- The host's `dot_general` over a one-axis contraction record is `prod`. -/
theorem dotGeneral_eq_prod {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂) :
    Host.dotGeneral D prec l r = prod l r :=
  funext fun j => (Ideal.dotGeneral_apply D prec .single l r j).trans
    (Cert.Lib.PlainDot.sum_rows_cols D hr hs hl0 hl1 hr0 hr1 l r j)

/-- A kernel's `tpu.matmul` into the zero accumulator, over a one-axis contraction record, is `prod`. -/
theorem matmul_zero_eq_prod {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂) :
    matmul D prec l r (constant (F := Ideal) ⟨2, ![M, N]⟩ .f32 0x00000000#32) = prod l r :=
  funext fun j => (Ideal.matmul_constant_zero_apply D prec l r j).trans
    (Cert.Lib.PlainDot.sum_rows_cols D hr hs hl0 hl1 hr0 hr1 l r j)

/-- The product of a block of `B` rows of `l`, starting at row `T * B`, read at `(p, q)`, is the whole product at
    `(T * B + p, q)`: `lb` holds those rows (`hl`) and `rb` holds column `q` of the right operand (`hr`). -/
theorem prod_rows {M K N B : ℕ} (l : (⟨2, ![M, K]⟩ : Shape).Idx → EReal) (r : (⟨2, ![K, N]⟩ : Shape).Idx → EReal)
    (lb : (⟨2, ![B, K]⟩ : Shape).Idx → EReal) (rb : (⟨2, ![K, N]⟩ : Shape).Idx → EReal)
    (T : ℕ) (p : Fin B) (q : Fin N) (h : T * B + p.val < M)
    (hl : ∀ k : Fin K, lb (ix2 p k) = l (ix2 ⟨T * B + p.val, h⟩ k))
    (hr : ∀ k : Fin K, rb (ix2 k q) = r (ix2 k q)) :
    prod lb rb (ix2 p q) = prod l r (ix2 ⟨T * B + p.val, h⟩ q) :=
  Finset.sum_congr rfl fun k _ => by
    show lb (ix2 p k) * rb (ix2 k q) = l (ix2 ⟨T * B + p.val, h⟩ k) * r (ix2 k q)
    rw [hl k, hr k]

end Cert.Lib.MatProd

end
-- ==== Proof.KerRegion0.lean ====
/-
  Pallas call 0 of the kernel: what it leaves in its output array.

  The call walks ten grid points; point `t` stages rows `10000 t … 10000 t + 9999` of its left operand and the whole
  128 × 128 right operand, multiplies them (the body: a matrix product into a zero accumulator; the changes of float
  format around it are the identity at the exact values) and writes the 10000 × 128 block back to the same rows of the
  output. A row of a matrix product depends on the left operand through that row only, so block `t` of the output is
  block `t` of the product of the WHOLE left operand with the right operand, and the ten blocks tile the output:
  the array ends holding that product. Stated at any contents `V` the call is entered from.
-/
import proofs.«170837_j10694468567653_2_alg».proof.Proof.Gen.KernelIdeal.Frame
import Idealize.ShloMosaic.Lib.Pipeline.Value
import Idealize.ShloMosaic.Lib.ValueIdx
import proofs.«170837_j10694468567653_2_alg».proof.Proof.LibMatProd

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)
open Cert.Lib.MatProd (prod)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the product of its two loaded blocks. -/
theorem pay_eq (x0 : Vec Ideal S10000x128 .f32) (x1 : Vec Ideal S128x128 .f32) :
    k0_pay1 x0 x1 = prod x0 x1 := by
  unfold k0_pay1
  rw [shapeCast_self]
  exact Cert.Lib.MatProd.matmul_zero_eq_prod (φ₁ := .bf16) (φ₂ := .bf16)
    dot_S10000x128_S128x128_S10000x128_1_0_0_1_n_n rfl rfl
    (fun _ _ => rfl)
    (fun j q => dot_S10000x128_S128x128_S10000x128_1_0_0_1_n_n.lhsIdx_val_of_single rfl j q)
    (fun j q => dot_S10000x128_S128x128_S10000x128_1_0_0_1_n_n.rhsIdx_val_of_single rfl j q)
    (fun _ _ => rfl) none x0 x1

/-- The printed index maps over the grid: the left operand's block moves with the output's down the rows, the right
    operand's stays, and the output's block index is the point's number. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every block of rows is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- WHAT POINT `t` WRITES BACK is block `t` of the product of the whole operands as the call finds them. -/
theorem flushed_eq (c : Dev nD) (t : Fin cfg0.N) :
    (dat0 V c).flushed 2 t
      = ((cfg0.win 2).blk t).view.read (Elt Ideal) (prod (V c main_v17) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  rw [pay_eq]
  obtain ⟨e0, e1, e2, e3, e4, e5⟩ := idx_facts t
  funext j
  show prod (iblk0 V c 0 t) (iblk0 V c 1 t) j
    = prod (V c main_v17) (V c main_arg2) (((cfg0.win 2).blk t).view.emb j)
  unfold Cert.Lib.MatProd.prod
  refine Finset.sum_congr rfl fun k _ => ?_
  refine congrArg₂ (· * ·) ?_ ?_
  · show V c main_v17 (((cfg0.win 0).blk t).view.emb (ix2 (j 0) k))
      = V c main_v17 (ix2 ((((cfg0.win 2).blk t).view.emb j) 0) k)
    refine congrArg _ (funext fun a => Fin.ext ?_)
    match a with
    | ⟨0, _⟩ =>
      show win0_0.index t (0 : Fin 2) * 10000 + 1 * (j 0).val = win0_2.index t (0 : Fin 2) * 10000 + 1 * (j 0).val
      omega
    | ⟨1, _⟩ =>
      show win0_0.index t (1 : Fin 2) * 128 + 1 * k.val = k.val
      omega
  · show V c main_arg2 (((cfg0.win 1).blk t).view.emb (ix2 k (j 1)))
      = V c main_arg2 (ix2 k ((((cfg0.win 2).blk t).view.emb j) 1))
    refine congrArg _ (funext fun a => Fin.ext ?_)
    match a with
    | ⟨0, _⟩ =>
      show win0_1.index t (0 : Fin 2) * 128 + 1 * k.val = k.val
      omega
    | ⟨1, _⟩ =>
      show win0_1.index t (1 : Fin 2) * 128 + 1 * (j 1).val = win0_2.index t (1 : Fin 2) * 128 + 1 * (j 1).val
      omega

/-- An index of the output is in point `t`'s block iff each coordinate is in the block's range on its axis. -/
theorem mem_blk (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v18).slice (win0_2.rect t)).set ↔ _
  rw [View.set_slice_whole, Rect.mem_set_unit]
  exact Iff.rfl

/-- The ten blocks of rows tile the output: row `r` is in block `r / 10000`. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 128 ≤ (i 1).val ∧ (i 1).val < win0_2.index t (1 : Fin 2) * 128 + 128
    omega

/-- THE OUTPUT ARRAY after the call: the product of the operands the call was entered with. -/
theorem final (c : Dev nD) : (dat0 V c).arrAt 2 cfg0.N = prod (V c main_v17) (V c main_arg2) :=
  (dat0 V c).arrAt_eq_of_cover 2 _ (fun t _ => flushed_eq V c t) (cover)

end Cert.KernelIdeal.Region0

end
-- ==== Proof.KerRegion1.lean ====
/-
  Pallas call 1 of the kernel: what it leaves in its output array.

  The call walks ten grid points; point `t` stages rows `10000 t … 10000 t + 9999` of its left operand and the whole
  128 × 128 right operand, multiplies them (the body: a matrix product into a zero accumulator; the changes of float
  format around it are the identity at the exact values) and writes the 10000 × 128 block back to the same rows of the
  output. A row of a matrix product depends on the left operand through that row only, so block `t` of the output is
  block `t` of the product of the WHOLE left operand with the right operand, and the ten blocks tile the output:
  the array ends holding that product. Stated at any contents `V` the call is entered from.
-/
import proofs.«170837_j10694468567653_2_alg».proof.Proof.Gen.KernelIdeal.Frame
import Idealize.ShloMosaic.Lib.Pipeline.Value
import Idealize.ShloMosaic.Lib.ValueIdx
import proofs.«170837_j10694468567653_2_alg».proof.Proof.LibMatProd

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)
open Cert.Lib.MatProd (prod)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the product of its two loaded blocks. -/
theorem pay_eq (x0 : Vec Ideal S10000x128 .f32) (x1 : Vec Ideal S128x128 .f32) :
    k1_pay1 x0 x1 = prod x0 x1 := by
  unfold k1_pay1
  rw [shapeCast_self]
  exact Cert.Lib.MatProd.matmul_zero_eq_prod (φ₁ := .bf16) (φ₂ := .bf16)
    dot_S10000x128_S128x128_S10000x128_1_0_0_1_n_n rfl rfl
    (fun _ _ => rfl)
    (fun j q => dot_S10000x128_S128x128_S10000x128_1_0_0_1_n_n.lhsIdx_val_of_single rfl j q)
    (fun j q => dot_S10000x128_S128x128_S10000x128_1_0_0_1_n_n.rhsIdx_val_of_single rfl j q)
    (fun _ _ => rfl) none x0 x1

/-- The printed index maps over the grid: the left operand's block moves with the output's down the rows, the right
    operand's stays, and the output's block index is the point's number. -/
theorem idx_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every block of rows is some point's. -/
theorem idx_onto : ∀ q0 : Fin 10, ∃ t : Fin cfg1.N, win1_2.index t = ![q0.val, 0] :=
  (by decide +kernel : ∀ q0 : Fin 10, ∃ t : Fin grid1.N, win1_2.index t = ![q0.val, 0])

/-- WHAT POINT `t` WRITES BACK is block `t` of the product of the whole operands as the call finds them. -/
theorem flushed_eq (c : Dev nD) (t : Fin cfg1.N) :
    (dat1 V c).flushed 2 t
      = ((cfg1.win 2).blk t).view.read (Elt Ideal) (prod (V c main_v37) (V c main_arg4)) := by
  show (cfg1.win 2).cut (grid1.coords t) ((dat1 V c).after 2 t) = _
  rw [after1_2]
  unfold out1_2
  rw [View.canon_unit_zero hz]
  simp only [View.ld_unit_zero (S := S10000x128) hz, View.ld_unit_zero (S := S128x128) hz]
  rw [pay_eq]
  obtain ⟨e0, e1, e2, e3, e4, e5⟩ := idx_facts t
  funext j
  show prod (iblk1 V c 0 t) (iblk1 V c 1 t) j
    = prod (V c main_v37) (V c main_arg4) (((cfg1.win 2).blk t).view.emb j)
  unfold Cert.Lib.MatProd.prod
  refine Finset.sum_congr rfl fun k _ => ?_
  refine congrArg₂ (· * ·) ?_ ?_
  · show V c main_v37 (((cfg1.win 0).blk t).view.emb (ix2 (j 0) k))
      = V c main_v37 (ix2 ((((cfg1.win 2).blk t).view.emb j) 0) k)
    refine congrArg _ (funext fun a => Fin.ext ?_)
    match a with
    | ⟨0, _⟩ =>
      show win1_0.index t (0 : Fin 2) * 10000 + 1 * (j 0).val = win1_2.index t (0 : Fin 2) * 10000 + 1 * (j 0).val
      omega
    | ⟨1, _⟩ =>
      show win1_0.index t (1 : Fin 2) * 128 + 1 * k.val = k.val
      omega
  · show V c main_arg4 (((cfg1.win 1).blk t).view.emb (ix2 k (j 1)))
      = V c main_arg4 (ix2 k ((((cfg1.win 2).blk t).view.emb j) 1))
    refine congrArg _ (funext fun a => Fin.ext ?_)
    match a with
    | ⟨0, _⟩ =>
      show win1_1.index t (0 : Fin 2) * 128 + 1 * k.val = k.val
      omega
    | ⟨1, _⟩ =>
      show win1_1.index t (1 : Fin 2) * 128 + 1 * (j 1).val = win1_2.index t (1 : Fin 2) * 128 + 1 * (j 1).val
      omega

/-- An index of the output is in point `t`'s block iff each coordinate is in the block's range on its axis. -/
theorem mem_blk (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v38).slice (win1_2.rect t)).set ↔ _
  rw [View.set_slice_whole, Rect.mem_set_unit]
  exact Iff.rfl

/-- The ten blocks of rows tile the output: row `r` is in block `r / 10000`. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 128 ≤ (i 1).val ∧ (i 1).val < win1_2.index t (1 : Fin 2) * 128 + 128
    omega

/-- THE OUTPUT ARRAY after the call: the product of the operands the call was entered with. -/
theorem final (c : Dev nD) : (dat1 V c).arrAt 2 cfg1.N = prod (V c main_v37) (V c main_arg4) :=
  (dat1 V c).arrAt_eq_of_cover 2 _ (fun t _ => flushed_eq V c t) (cover)

end Cert.KernelIdeal.Region1

end
-- ==== Proof.LibRowGatherScatter.lean ====
/-
  Whole rows gathered, and whole rows added at scattered places.

  `x[idx]` for a table `x : [N, C]` and one start word per result row (`idx : [E, 1]`) is a gather with the row
  axis collapsed: result `(e, c)` is the table at `(ρ e, c)`, where `ρ e` is row `e`'s start word read as a signed
  integer and clamped into `0 … N − 1` (`gather_rows_apply`).

  `x.at[idx].add(u)` for updates `u : [E, C]` is a scatter whose window is a whole row: update `(e, c)` lands at
  `(z, c)` when row `e`'s start word, read as a signed integer `z` and NOT clamped, is a row of the table, and is
  dropped otherwise (`resultIdx?_iff`). At the exact values the result at `(n, c)` is therefore the table's entry
  plus the sum over ALL update rows `e` of `u (e, c)` when `e`'s start word is `n` and of `0` otherwise
  (`hostScatterAdd_rows_apply`): a segment sum, written with an indicator so that no index set depends on the data.
  The dimension numbers enter as hypotheses on the record's fields, so one lemma serves every program's copy of it.
-/
import Idealize.ShloMosaic.PureOps.Ideal
import Idealize.ShloMosaic.Lib.ValueIdx

noncomputable section

open scoped BigOperators

namespace Cert.Lib.RowGatherScatter

open Idealize.ShloMosaic Idealize.ShloMosaic.ValueIdx

variable {N E C : ℕ}

/-- Where row `e`'s start word sits in the `[E, 1]` array of start indices. -/
abbrev startAt (e : Fin E) : (⟨2, ![E, 1]⟩ : Shape).Idx := ix2 e ⟨0, Nat.one_pos⟩

private theorem one_not_mem : (1 : Fin 2) ∉ ([0] : List (Fin 2)) := by decide

private theorem mem_kept (s : Shape) (l : List (Fin s.rank)) (a : Fin s.rank) : a ∈ s.kept l ↔ a ∉ l := by
  simp [Shape.kept, List.mem_filter, List.mem_finRange]

/-! ## The scatter of rows -/

section Scatter

variable (d : ScatterDims ⟨2, ![N, C]⟩ ⟨2, ![E, 1]⟩ ⟨2, ![E, C]⟩)

theorem start_row (h3 : d.scatterDimsToOperandDims = [0]) (h1 : d.updateWindowDims = [1]) (h4 : d.indexVectorDim = 1)
    {w : ℕ} (idx : IVec ⟨2, ![E, 1]⟩ w) (e : Fin E) (c : Fin C) :
    d.start (ix2 e c) idx 0 = (idx (startAt e)).toInt := by
  obtain ⟨uw, iw, sd, iv, wf⟩ := d
  dsimp only at h1 h3 h4
  subst h1 h3 h4
  unfold ScatterDims.start
  rw [dif_pos (List.mem_singleton.mpr rfl)]
  congr 2
  funext b
  refine Fin.ext ?_
  match b with
  | ⟨0, _⟩ => rfl
  | ⟨1, _⟩ => rfl

theorem start_col (h3 : d.scatterDimsToOperandDims = [0]) {w : ℕ} (idx : IVec ⟨2, ![E, 1]⟩ w)
    (j : (⟨2, ![E, C]⟩ : Shape).Idx) : d.start j idx 1 = 0 := by
  unfold ScatterDims.start
  rw [dif_neg (by rw [h3]; exact one_not_mem)]

theorem window_row (h2 : d.insertedWindowDims = [0]) (j : (⟨2, ![E, C]⟩ : Shape).Idx) : d.window j 0 = 0 := by
  unfold ScatterDims.window
  rw [dif_neg (by rw [ScatterDims.sKept, h2, mem_kept]; exact not_not.mpr (List.mem_singleton.mpr rfl))]

theorem window_col (h1 : d.updateWindowDims = [1]) (h2 : d.insertedWindowDims = [0]) (e : Fin E) (c : Fin C) :
    d.window (ix2 e c) 1 = c.val := by
  obtain ⟨uw, iw, sd, iv, wf⟩ := d
  dsimp only at h1 h2
  subst h1 h2
  unfold ScatterDims.window
  rw [dif_pos (by rw [ScatterDims.sKept, mem_kept]; exact one_not_mem)]
  rfl

/-- Update `(e, c)` lands at `(n, c')` exactly when row `e`'s start word, read signed, is `n`, and `c = c'`. -/
theorem resultIdx?_iff (h1 : d.updateWindowDims = [1]) (h2 : d.insertedWindowDims = [0])
    (h3 : d.scatterDimsToOperandDims = [0]) (h4 : d.indexVectorDim = 1) {w : ℕ} (idx : IVec ⟨2, ![E, 1]⟩ w)
    (e : Fin E) (c : Fin C) (n : Fin N) (c' : Fin C) :
    d.resultIdx? (ix2 e c) idx = some (ix2 n c') ↔ (idx (startAt e)).toInt = (n.val : ℤ) ∧ c = c' := by
  have s0 := start_row d h3 h1 h4 idx e c
  have s1 := start_col d h3 idx (ix2 e c)
  have w0 := window_row d h2 (ix2 e c)
  have w1 := window_col d h1 h2 e c
  unfold ScatterDims.resultIdx?
  constructor
  · intro h
    split at h
    · rename_i hin
      have hf := Option.some.inj h
      have e0 := congrArg (fun f => (f 0).val) hf
      have e1 := congrArg (fun f => (f 1).val) hf
      simp only [s0, s1, w0, w1] at e0 e1
      have h0 := (hin 0).1
      rw [s0, w0] at h0
      refine ⟨?_, Fin.ext ?_⟩
      · have : ((idx (startAt e)).toInt + ((0 : ℕ) : ℤ)).toNat = n.val := e0
        omega
      · have : ((0 : ℤ) + (c.val : ℤ)).toNat = c'.val := e1
        omega
    · exact absurd h (by simp)
  · rintro ⟨hz, rfl⟩
    have hin : ∀ a : Fin 2, 0 ≤ d.start (ix2 e c) idx a + (d.window (ix2 e c) a : ℤ) ∧
        d.start (ix2 e c) idx a + (d.window (ix2 e c) a : ℤ) < ((⟨2, ![N, C]⟩ : Shape).size a : ℤ) := by
      intro a
      match a with
      | ⟨0, _⟩ =>
        rw [show (⟨0, _⟩ : Fin 2) = 0 from rfl, s0, w0, hz]
        have := n.isLt
        exact ⟨by omega, by show (n.val : ℤ) + ((0 : ℕ) : ℤ) < (N : ℤ); omega⟩
      | ⟨1, _⟩ =>
        rw [show (⟨1, _⟩ : Fin 2) = 1 from rfl, s1, w1]
        have := c.isLt
        exact ⟨by omega, by show (0 : ℤ) + (c.val : ℤ) < (C : ℤ); omega⟩
    rw [dif_pos hin]
    congr 1
    funext a
    refine Fin.ext ?_
    match a with
    | ⟨0, _⟩ =>
      show (d.start (ix2 e c) idx 0 + (d.window (ix2 e c) 0 : ℤ)).toNat = n.val
      rw [s0, w0, hz]; omega
    | ⟨1, _⟩ =>
      show (d.start (ix2 e c) idx 1 + (d.window (ix2 e c) 1 : ℤ)).toNat = c.val
      rw [s1, w1]; omega

/-- THE SCATTER-ADD OF ROWS AT `(n, c)`, at the exact values: the table's entry plus, over every update row, the
    update's entry in column `c` when that row's start word is `n`. -/
theorem hostScatterAdd_rows_apply (h1 : d.updateWindowDims = [1]) (h2 : d.insertedWindowDims = [0])
    (h3 : d.scatterDimsToOperandDims = [0]) (h4 : d.indexVectorDim = 1) {w : ℕ}
    (x : (⟨2, ![N, C]⟩ : Shape).Idx → EReal) (idx : IVec ⟨2, ![E, 1]⟩ w) (upd : (⟨2, ![E, C]⟩ : Shape).Idx → EReal)
    (n : Fin N) (c : Fin C) :
    Ideal.hostScatterAdd d x idx upd (ix2 n c)
      = x (ix2 n c) + ∑ e : Fin E, if (idx (startAt e)).toInt = (n.val : ℤ) then upd (ix2 e c) else 0 := by
  unfold Ideal.hostScatterAdd
  congr 1
  rw [Finset.sum_filter, sum_idx2]
  refine Finset.sum_congr rfl fun e _ => ?_
  simp only [resultIdx?_iff d h1 h2 h3 h4]
  by_cases hz : (idx (startAt e)).toInt = (n.val : ℤ)
  · simp only [hz, true_and, if_true]
    rw [Finset.sum_ite_eq' Finset.univ c (fun c' => upd (ix2 e c'))]
    simp
  · simp only [hz, false_and, if_false]
    exact Finset.sum_const_zero

end Scatter

/-! ## The gather of rows -/

section Gather

variable (g : GatherDims ⟨2, ![N, C]⟩ ⟨2, ![E, 1]⟩ ⟨2, ![E, C]⟩)

/-- The table row that result row `e` reads: its start word read signed, clamped into `0 … N − 1`. -/
def rowOf {w : ℕ} (hN : 0 < N) (idx : IVec ⟨2, ![E, 1]⟩ w) (e : Fin E) : Fin N :=
  ⟨min (idx (startAt e)).toInt.toNat (N - 1), by omega⟩

/-- THE GATHER OF ROWS AT `(e, c)`: the table at `(rowOf e, c)`. -/
theorem gather_rows_apply {α : Type} (hN : 0 < N) (ho : g.offsetDims = [1]) (hc : g.collapsedSliceDims = [0])
    (hob : g.operandBatchingDims = []) (hsb : g.startIndicesBatchingDims = []) (hm : g.startIndexMap = [0])
    (hv : g.indexVectorDim = 1) (hs : g.sliceSizes = ![1, C]) {w : ℕ}
    (x : (⟨2, ![N, C]⟩ : Shape).Idx → α) (idx : IVec ⟨2, ![E, 1]⟩ w) (e : Fin E) (c : Fin C) :
    Host.gather g x idx (ix2 e c) = x (ix2 (rowOf hN idx e) c) := by
  obtain ⟨od, cs, ob, sb, sm, iv, ss, wf⟩ := g
  dsimp only at ho hc hob hsb hm hv hs
  subst ho hc hob hsb hm hv hs
  unfold Host.gather
  congr 1
  funext a
  refine Fin.ext ?_
  match a with
  | ⟨0, _⟩ =>
    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - 1) = min (idx (startAt e)).toInt.toNat (N - 1)
    congr 4
    funext b
    refine Fin.ext ?_
    match b with
    | ⟨0, _⟩ => rfl
    | ⟨1, _⟩ => rfl
  | ⟨1, _⟩ =>
    show GatherDims.start _ (ix2 e c) idx 1 + GatherDims.batchCoord _ (ix2 e c) 1 + GatherDims.offCoord _ (ix2 e c) 1 = c.val
    rw [GatherDims.batchCoord_eq_zero _ _ _ List.not_mem_nil]
    unfold GatherDims.start GatherDims.offCoord
    rw [dif_neg (by exact one_not_mem), dif_pos ((GatherDims.mem_sKept _ _).mpr ⟨one_not_mem, List.not_mem_nil⟩)]
    simp only [Nat.add_zero, Nat.zero_add]
    rfl

end Gather

end Cert.Lib.RowGatherScatter

end
-- ==== Proof.LibColBroadcast.lean ====
/-
  A vector spread over the columns of a matrix, as jax prints `v[:, None]` meeting an `[a, b]` array.

  The host places a vector `[a]` as the one column of `[a, 1]` and repeats that column over `b` columns (two
  `broadcast_in_dim`s). Read at `(r, c)` the result is the vector at `r`, whatever the column. A scalar spread over
  a whole array reads the scalar at every index. Imports only the Idealize library.
-/
import Idealize.ShloMosaic.Lib.Pipeline.Value
import Idealize.ShloMosaic.Lib.ValueIdx

noncomputable section

namespace Cert.Lib.ColBroadcast

open Idealize.ShloMosaic Idealize.ShloMosaic.ValueIdx

/-- A vector `[a]` placed as the one column of `[a, 1]` and that column repeated over `b` columns reads, at
    `(r, c)`, the vector at `r` (for `a ≠ 1`: the library's lemma asks whether the axis is a unit one). -/
theorem col_apply {α : Type} {a b : ℕ} (ha : a ≠ 1) (x : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (r : Fin a) (c : Fin b) :
    broadcastInDim ⟨2, ![a, b]⟩ ![0, 1] h2 (broadcastInDim ⟨2, ![a, 1]⟩ ![0] h1 x) (ix2 r c) = x (ix1 r) :=
  (broadcastInDim_apply ![0, 1] h2 _ (ix2 r c) (ix2 r (⟨0, Nat.one_pos⟩ : Fin 1)) (fun d => match d with
      | ⟨0, _⟩ => by show r.val = if a = 1 then 0 else r.val; rw [if_neg ha]
      | ⟨1, _⟩ => by show (0 : ℕ) = if (1 : ℕ) = 1 then 0 else c.val; rw [if_pos rfl])).trans
    (broadcastInDim_apply ![0] h1 x (ix2 r (⟨0, Nat.one_pos⟩ : Fin 1)) (ix1 r) (fun d => match d with
      | ⟨0, _⟩ => by show r.val = if a = 1 then 0 else r.val; rw [if_neg ha]))

/-- A scalar spread over an array reads the scalar at every index. -/
theorem scalar_apply {α : Type} {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 (fun d => d.elim0)

end Cert.Lib.ColBroadcast

end
-- ==== Proof.LibDenseLayer.lean ====
/-
  One dense layer read at an entry, on a kernel's side and on the host's.

  A dense layer is a matrix product plus a bias. A kernel body prints it as a `tpu.matmul` into a zero accumulator
  with a one-row bias array `[1, N]` broadcast over the rows; jax on the host prints the bias as a vector `[N]`
  placed as the one row of `[1, N]` and that row repeated over the rows (two `broadcast_in_dim`s). At the extended
  reals both read, at `(p, c)`, the sum over the contracted coordinate of left `(p, k)` times right `(k, c)`, plus
  the bias at `c`. The matrix product's part is `Cert.Lib.PlainDot.sum_rows_cols` (this file imports that one; a
  host `dot_general` is that lemma after `Ideal.dotGeneral_apply`). Imports only the Idealize library besides.
-/
import proofs.«170837_j10694468567653_2_alg».proof.Proof.LibPlainDot
import Idealize.ShloMosaic.Lib.ValueLayout
import Idealize.ShloMosaic.Lib.Pipeline.Value
import Idealize.ShloMosaic.Lib.ValueIdx
import Idealize.ShloMosaic.PureOps.Ideal.Laws

noncomputable section

namespace Cert.Lib.DenseLayer

open Idealize.ShloMosaic Idealize.ShloMosaic.ValueIdx

/-! ## A kernel's layer: matmul into zero plus a broadcast bias row -/

/-- A matmul of `[M, K]` by `[K, N]` into the zero accumulator, plus a `[1, N]` row broadcast over the `M` rows,
    read at `(p, c)`: the sum over the contracted coordinate of left `(p, k)` times right `(k, c)`, plus the row's
    entry at `c`. The contraction record enters through the six facts of a plain matrix product. -/
theorem layer_apply {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    {φ₁ φ₂ : FTy} (L : FVec Ideal ⟨2, ![M, K]⟩ φ₁) (R : FVec Ideal ⟨2, ![K, N]⟩ φ₂)
    (b : FVec Ideal ⟨2, ![1, N]⟩ .f32) (hb : (⟨2, ![1, N]⟩ : Shape).Broadcasts ⟨2, ![M, N]⟩) (p : Fin M) (c : Fin N) :
    addf (matmul D none L R (constant (F := Ideal) ⟨2, ![M, N]⟩ .f32 0x00000000#32)) (broadcastTo ⟨2, ![M, N]⟩ b hb) (ix2 p c)
      = (∑ k : Fin K, L (ix2 p k) * R (ix2 k c)) + b (ix2 (0 : Fin 1) c) := by
  rw [addf_apply, broadcastTo_1b_ab_apply]
  simp only [matmul]
  rw [Ideal.matmul_constant_zero_apply]
  exact congrArg (· + b (ix2 (0 : Fin 1) c)) (Cert.Lib.PlainDot.sum_rows_cols D hr hs hl0 hl1 hr0 hr1 L R (ix2 p c))

/-! ## The host's bias: a vector broadcast over the rows in two steps -/

/-- A vector `[N]` placed as the one row of `[1, N]` and that row repeated over `M` rows reads, at `(r, k)`, the
    vector at `k` (for `N ≠ 1`: a unit axis would be read at `0`, which is the same entry, but the library's
    lemma asks which case it is). -/
theorem bias_apply {α : Type} {M N : ℕ} (hN : N ≠ 1) (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (k : Fin N) :
    broadcastInDim ⟨2, ![M, N]⟩ ![0, 1] h2 (broadcastInDim ⟨2, ![1, N]⟩ ![1] h1 b) (ix2 r k) = b (ix1 k) :=
  (broadcastInDim_apply ![0, 1] h2 _ (ix2 r k) (ix2 (⟨0, Nat.one_pos⟩ : Fin 1) k) (fun a => match a with
      | ⟨0, _⟩ => by show (0 : ℕ) = if (1 : ℕ) = 1 then 0 else r.val; rw [if_pos rfl]
      | ⟨1, _⟩ => by show k.val = if N = 1 then 0 else k.val; rw [if_neg hN])).trans
    (broadcastInDim_apply ![1] h1 b (ix2 (⟨0, Nat.one_pos⟩ : Fin 1) k) (ix1 k) (fun a => match a with
      | ⟨0, _⟩ => by show k.val = if N = 1 then 0 else k.val; rw [if_neg hN]))

end Cert.Lib.DenseLayer

end
-- ==== Proof.LibSegLinear.lean ====
/-
  A linear map commutes with a weighted segment sum — for finite data.

  Over finitely many edges `e` and features `k`, with an indicator `p e` (edge `e` lands in the segment), a row
  `A e k` per edge, an edge weight `w e` and one column `W k` of a matrix:

      ∑_e [p e] (∑_k A e k · W k) · w e  =  ∑_k (∑_e [p e] A e k · w e) · W k.

  Applying the matrix before the gather-scale-scatter or after it gives the same entry. On the extended reals the
  identity needs every `A e k`, `w e`, `W k` to be a real number: it distributes a product over a sum and exchanges
  two sums, which fail at infinities (`seg_linear`; over ℝ it is `seg_linear_real`). Imports only Mathlib.
-/
import Mathlib.Data.EReal.Operations
import Mathlib.Algebra.BigOperators.Ring.Finset
import Mathlib.Algebra.BigOperators.Group.Finset.Sigma
import Mathlib.Tactic.Ring

open scoped BigOperators

namespace Cert.Lib.SegLinear

variable {ι κ : Type*} [Fintype ι] [Fintype κ]

/-- The law over the reals. -/
theorem seg_linear_real (p : ι → Prop) [DecidablePred p] (a : ι → κ → ℝ) (w : ι → ℝ) (W : κ → ℝ) :
    ∑ e, (if p e then (∑ k, a e k * W k) * w e else 0) = ∑ k, (∑ e, if p e then a e k * w e else 0) * W k := by
  simp only [Finset.sum_mul]
  rw [Finset.sum_comm]
  refine Finset.sum_congr rfl fun e _ => ?_
  by_cases h : p e
  · simp only [h, if_true]
    exact Finset.sum_congr rfl fun k _ => by ring
  · simp only [h, if_false, zero_mul, Finset.sum_const_zero]

/-- The inclusion of the reals in the extended reals carries a finite sum to the sum. -/
theorem coe_sum {α : Type*} (s : Finset α) (f : α → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- … and an indicator to the indicator. -/
theorem coe_ite (p : Prop) [Decidable p] (x : ℝ) : ((if p then x else 0 : ℝ) : EReal) = if p then (x : EReal) else 0 := by
  split_ifs <;> simp

/-- THE LAW on the extended reals, for data that are real numbers. -/
theorem seg_linear (p : ι → Prop) [DecidablePred p] (A : ι → κ → EReal) (w : ι → EReal) (W : κ → EReal)
    (hA : ∀ e k, ∃ r : ℝ, A e k = (r : EReal)) (hw : ∀ e, ∃ r : ℝ, w e = (r : EReal))
    (hW : ∀ k, ∃ r : ℝ, W k = (r : EReal)) :
    ∑ e, (if p e then (∑ k, A e k * W k) * w e else 0) = ∑ k, (∑ e, if p e then A e k * w e else 0) * W k := by
  choose a ha using hA
  choose w' hw using hw
  choose W' hW using hW
  have L : ∀ e, (if p e then (∑ k, A e k * W k) * w e else 0)
      = ((if p e then (∑ k, a e k * W' k) * w' e else 0 : ℝ) : EReal) := by
    intro e
    rw [coe_ite, EReal.coe_mul, coe_sum]
    simp only [EReal.coe_mul, ha, hw, hW]
  have R : ∀ k, (∑ e, if p e then A e k * w e else 0) * W k
      = (((∑ e, if p e then a e k * w' e else 0) * W' k : ℝ) : EReal) := by
    intro k
    rw [EReal.coe_mul, coe_sum]
    simp only [coe_ite, EReal.coe_mul, ha, hw, hW]
  simp only [L, R, ← coe_sum]
  exact congrArg _ (seg_linear_real p a w' W')

end Cert.Lib.SegLinear
-- ==== Proof.LibGcnNormLaw.lean ====
/-
  One graph-convolution layer's normalization, moved across the sums.

  A layer gathers a row per edge, weights it, and adds it into the edge's target node. With the symmetric
  normalization the weight of edge `e` from `s e` to `t e` is `δ (s e) · δ (t e)`. The factor of the target can be
  taken out of the sum over the edges that land on a node `n` (it is `δ n` on every one of them), and the factor
  of the source can be put on the row BEFORE the linear map, since the map is linear in the row:

      δ n · ∑_{e → n} ∑_k (x (s e) k · δ (s e)) · w k   =   ∑_{e → n} (∑_k x (s e) k · w k) · (δ (s e) · δ (t e)).

  Both steps distribute a product over a sum, which is a law of the reals and fails at infinities; on the extended
  reals the identity is stated for data that are real numbers, and the common value is then a real number too.
-/
import Mathlib.Data.EReal.Operations
import Mathlib.Algebra.BigOperators.Ring.Finset
import Mathlib.Tactic.Ring
import proofs.«170837_j10694468567653_2_alg».proof.Proof.LibSegLinear

open scoped BigOperators

namespace Cert.Lib.GcnNormLaw

open Cert.Lib.SegLinear

variable {ι κ : Type*} [Fintype ι] [Fintype κ]

/-- The law over the reals. `p e`: edge `e` lands on the node; `x e` the row gathered for the edge, `ds e` and
    `dd e` the normalization at its source and at its target, `dn` the normalization at the node (the target's, on the
    edges that land there: `h`), `w` one column of the weights, `b` the bias entry. -/
theorem layer_real (p : ι → Prop) [DecidablePred p] (x : ι → κ → ℝ) (ds dd : ι → ℝ) (dn : ℝ) (w : κ → ℝ) (b : ℝ)
    (h : ∀ e, p e → dd e = dn) :
    dn * (∑ e, if p e then ∑ k, (x e k * ds e) * w k else 0) + b
      = (∑ e, if p e then (∑ k, x e k * w k) * (ds e * dd e) else 0) + b := by
  congr 1
  rw [Finset.mul_sum]
  refine Finset.sum_congr rfl fun e _ => ?_
  by_cases hp : p e
  · simp only [hp, if_true, h e hp]
    rw [Finset.mul_sum, Finset.sum_mul]
    exact Finset.sum_congr rfl fun k _ => by ring
  · simp only [hp, if_false, mul_zero]

/-- THE LAW on the extended reals, for data that are real numbers; and the common value is a real number. -/
theorem layer_ereal (p : ι → Prop) [DecidablePred p] (X : ι → κ → EReal) (Ds Dd : ι → EReal) (Dn : EReal)
    (W : κ → EReal) (B : EReal)
    (hX : ∀ e k, ∃ r : ℝ, X e k = (r : EReal)) (hDs : ∀ e, ∃ r : ℝ, Ds e = (r : EReal))
    (hDd : ∀ e, ∃ r : ℝ, Dd e = (r : EReal)) (hDn : ∃ r : ℝ, Dn = (r : EReal))
    (hW : ∀ k, ∃ r : ℝ, W k = (r : EReal)) (hB : ∃ r : ℝ, B = (r : EReal))
    (h : ∀ e, p e → Dd e = Dn) :
    Dn * (∑ e, if p e then ∑ k, (X e k * Ds e) * W k else 0) + B
        = (∑ e, if p e then (∑ k, X e k * W k) * (Ds e * Dd e) else 0) + B
      ∧ ∃ r : ℝ, Dn * (∑ e, if p e then ∑ k, (X e k * Ds e) * W k else 0) + B = (r : EReal) := by
  choose x hx using hX
  choose ds hds using hDs
  choose dd hdd using hDd
  obtain ⟨dn, hdn⟩ := hDn
  choose w hw using hW
  obtain ⟨b, hb⟩ := hB
  have hreal : ∀ e, p e → dd e = dn := fun e hp => by
    have := h e hp
    rw [hdd, hdn] at this
    exact EReal.coe_eq_coe_iff.mp this
  have L : Dn * (∑ e, if p e then ∑ k, (X e k * Ds e) * W k else 0) + B
      = ((dn * (∑ e, if p e then ∑ k, (x e k * ds e) * w k else 0) + b : ℝ) : EReal) := by
    rw [EReal.coe_add, EReal.coe_mul, coe_sum]
    simp only [coe_ite, coe_sum, EReal.coe_mul, hx, hds, hdn, hw, hb]
  have R : (∑ e, if p e then (∑ k, X e k * W k) * (Ds e * Dd e) else 0) + B
      = (((∑ e, if p e then (∑ k, x e k * w k) * (ds e * dd e) else 0) + b : ℝ) : EReal) := by
    rw [EReal.coe_add, coe_sum]
    simp only [coe_ite, coe_sum, EReal.coe_mul, hx, hds, hdd, hw, hb]
  exact ⟨by rw [L, R, layer_real p x ds dd dn w b hreal], _, L⟩

/-- The rectifier of a real number is a real number. -/
theorem relu_real (r : ℝ) : max (r : EReal) 0 = ((max r 0 : ℝ) : EReal) := by
  rw [EReal.coe_strictMono.monotone.map_max, EReal.coe_zero]

end Cert.Lib.GcnNormLaw
-- ==== Proof.LibVecGather.lean ====
/-
  One entry of a vector gathered per start word.

  `v[idx]` for a vector `v : [N]` and one start word per result entry (`idx : [E, 1]`, the shape jax gives the
  indices of a plain `v[i]`) is a gather with the one axis collapsed and no offset axes: entry `e` of the result is
  the vector at `e`'s start word read as a signed integer and clamped into `0 … N − 1` — the same row function
  `rowOf` as a gather of whole rows of a table takes (`Cert.Lib.RowGatherScatter`), so that a per-node quantity and a
  per-node row gathered at the same words are read at the same node. The dimension numbers enter as hypotheses on
  the record's fields; over any element type and any extents. Imports the Idealize library and that file.
-/
import Idealize.ShloMosaic.PureOps.Ideal
import Idealize.ShloMosaic.Lib.ValueIdx
import proofs.«170837_j10694468567653_2_alg».proof.Proof.LibRowGatherScatter

noncomputable section

namespace Cert.Lib.VecGather

open Idealize.ShloMosaic Idealize.ShloMosaic.ValueIdx
open Cert.Lib.RowGatherScatter (startAt rowOf)

/-- `v[idx]` for a vector `v : [N]` and one start word per result entry (`idx : [E, 1]`): entry `e` is the vector
    at `e`'s start word read signed and clamped into `0 … N − 1`. -/
theorem gather_vec_apply {α : Type} {N E : ℕ} (g : GatherDims ⟨1, ![N]⟩ ⟨2, ![E, 1]⟩ ⟨1, ![E]⟩) (hN : 0 < N)
    (ho : g.offsetDims = []) (hc : g.collapsedSliceDims = [0]) (hob : g.operandBatchingDims = [])
    (hsb : g.startIndicesBatchingDims = []) (hm : g.startIndexMap = [0]) (hv : g.indexVectorDim = 1)
    (hs : g.sliceSizes = ![1]) {w : ℕ} (x : (⟨1, ![N]⟩ : Shape).Idx → α) (idx : IVec ⟨2, ![E, 1]⟩ w) (e : Fin E) :
    Host.gather g x idx (ix1 e) = x (ix1 (rowOf hN idx e)) := by
  obtain ⟨od, cs, ob, sb, sm, iv, ss, wf⟩ := g
  dsimp only at ho hc hob hsb hm hv hs
  subst ho hc hob hsb hm hv hs
  unfold Host.gather
  congr 1
  funext a
  refine Fin.ext ?_
  match a with
  | ⟨0, _⟩ =>
    show GatherDims.start _ (ix1 e) idx 0 + GatherDims.batchCoord _ (ix1 e) 0 + GatherDims.offCoord _ (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - 1) = min (idx (startAt e)).toInt.toNat (N - 1)
    congr 4
    funext b
    refine Fin.ext ?_
    match b with
    | ⟨0, _⟩ => rfl
    | ⟨1, _⟩ => rfl

end Cert.Lib.VecGather

end
-- ==== Proof.GcnLayer.lean ====
/-
  One graph-convolution layer as the two programs spell it, read at an entry.

  The graph is a list of edges: edge `e` goes from the node its source word names to the node its target word
  names. A ROW is read from a table at the source word taken modulo the negative wrap-around jax applies
  (`normIdx`) and then clamped into the table (`rowAt`); a row is ADDED into the table at the target word read as
  it is, and dropped when that is not a row of the table. With `δ` the normalization per node:

  * the reference multiplies, weights each gathered row of `x · W` by `δ (source) · δ (target)`, and adds;
  * the kernel scales the rows of `x` by `δ` first, multiplies, gathers, adds, and scales the sums by `δ`.

  Both are written here ONCE, over the dimension records and shape facts of whichever program cites them, so that
  each program's own term is an instance by unfolding; `kerLayer_apply` and `refLayer_apply` read them at an entry
  `(n, c)` as sums over all edges with an indicator, and `layer_eq` joins them by the law of `Cert.Lib.GcnNormLaw` when
  `x`, `W`, the bias and `δ` hold real numbers. `dinv_real`: the normalization `where (deg > 0) (rsqrt deg) 0` is a real
  number at every node, whatever the degree holds, because the reciprocal root of `+∞` is `0`.
-/
import Idealize.ShloMosaic.PureOps.Ideal.Laws
import Idealize.ShloMosaic.Lib.ValueIdx
import Idealize.ShloMosaic.Lib.Pipeline.Value
import proofs.«170837_j10694468567653_2_alg».proof.Proof.LibRowGatherScatter
import proofs.«170837_j10694468567653_2_alg».proof.Proof.LibMatProd
import proofs.«170837_j10694468567653_2_alg».proof.Proof.LibColBroadcast
import proofs.«170837_j10694468567653_2_alg».proof.Proof.LibDenseLayer
import proofs.«170837_j10694468567653_2_alg».proof.Proof.LibGcnNormLaw
import proofs.«170837_j10694468567653_2_alg».proof.Proof.LibVecGather

noncomputable section

open scoped BigOperators

namespace Cert.Gcn

open Idealize.ShloMosaic Idealize.ShloMosaic.ValueIdx
open Cert.Lib.RowGatherScatter (startAt rowOf)
open Cert.Lib.MatProd (prod)

/-! ## The shapes: 100000 nodes, 1700000 edges (the given ones and one loop per node), 128 features -/

abbrev S0 : Shape := ⟨0, ![]⟩
abbrev SN : Shape := ⟨1, ![100000]⟩
abbrev SE : Shape := ⟨1, ![1700000]⟩
abbrev SC : Shape := ⟨1, ![128]⟩
abbrev SN1 : Shape := ⟨2, ![100000, 1]⟩
abbrev SE1 : Shape := ⟨2, ![1700000, 1]⟩
abbrev S1C : Shape := ⟨2, ![1, 128]⟩
abbrev SNC : Shape := ⟨2, ![100000, 128]⟩
abbrev SEC : Shape := ⟨2, ![1700000, 128]⟩
abbrev SCC : Shape := ⟨2, ![128, 128]⟩

/-- The shape facts the layer's terms cite (a program supplies its own proofs of them). -/
structure Facts : Prop where
  b0E : S0.BroadcastsInDim SE (![] : Fin 0 → Fin SE.rank)
  b0N : S0.BroadcastsInDim SN (![] : Fin 0 → Fin SN.rank)
  b0NC : S0.BroadcastsInDim SNC (![] : Fin 0 → Fin SNC.rank)
  bE_E1 : SE.BroadcastsInDim SE1 (![0] : Fin 1 → Fin SE1.rank)
  bN_N1 : SN.BroadcastsInDim SN1 (![0] : Fin 1 → Fin SN1.rank)
  bN1_NC : SN1.BroadcastsInDim SNC (![0, 1] : Fin 2 → Fin SNC.rank)
  bC_1C : SC.BroadcastsInDim S1C (![1] : Fin 1 → Fin S1C.rank)
  b1C_NC : S1C.BroadcastsInDim SNC (![0, 1] : Fin 2 → Fin SNC.rank)
  lt : FTy.bits .bf16 < FTy.bits .f32

variable (f : Facts)

/-! ## The pieces, as the programs print them -/

/-- A scalar zero spread over the node table. -/
def zeros : FVec Ideal SNC .f32 := broadcastInDim SNC ![] f.b0NC (constant (F := Ideal) S0 .f32 0x00000000#32)

/-- jax's wrap-around of a negative index: `i + 100000` where `i < 0`, else `i`. -/
def normIdx (s : IVec SE 32) : IVec SE 32 :=
  select (cmpi .slt s (broadcastInDim SE ![] f.b0E (constantI S0 32 0#32)))
    (addi s (broadcastInDim SE ![] f.b0E (constantI S0 32 100000#32))) s

/-- One word per edge, as the one column of start indices a gather or a scatter takes. -/
def col {α : Type} (v : SE.Idx → α) : SE1.Idx → α := broadcastInDim SE1 ![0] f.bE_E1 v

/-- The in-degree: a one per edge added at the edge's target. -/
def deg (sd1 : ScatterDims SN SE1 SE) (d : IVec SE 32) : FVec Ideal SN .f32 :=
  Host.scatterAdd sd1 (broadcastInDim SN ![] f.b0N (constant (F := Ideal) S0 .f32 0x00000000#32)) (col f d)
    (broadcastInDim SE ![] f.b0E (constant (F := Ideal) S0 .f32 0x3F800000#32))

/-- The normalization: `where (deg > 0) (rsqrt deg) 0`. -/
def dinv (sd1 : ScatterDims SN SE1 SE) (d : IVec SE 32) : FVec Ideal SN .f32 :=
  select (cmpf .ogt (deg f sd1 d) (broadcastInDim SN ![] f.b0N (constant (F := Ideal) S0 .f32 0x00000000#32)))
    (Host.rsqrt (deg f sd1 d)) (broadcastInDim SN ![] f.b0N (id (constant (F := Ideal) S0 .f32 0x00000000#32)))

/-- The normalization per node, repeated over the features. -/
def dmat (δ : FVec Ideal SN .f32) : FVec Ideal SNC .f32 :=
  broadcastInDim SNC ![0, 1] f.bN1_NC (broadcastInDim SN1 ![0] f.bN_N1 δ)

/-- The bias per feature, repeated over the nodes. -/
def bias (b : FVec Ideal SC .f32) : FVec Ideal SNC .f32 :=
  broadcastInDim SNC ![0, 1] f.b1C_NC (broadcastInDim S1C ![1] f.bC_1C b)

/-- The rectifier. -/
def relu (x : FVec Ideal SNC .f32) : FVec Ideal SNC .f32 := maximumf x (zeros f)

/-- The kernel's input to its matrix product: the rows scaled by the normalization. -/
def kerPre (X : FVec Ideal SNC .f32) (δ : FVec Ideal SN .f32) : FVec Ideal SNC .f32 := mulf X (dmat f δ)

/-- The kernel's layer after its matrix product `H`: gather, add per target, scale, add the bias. -/
def kerPost (gd : GatherDims SNC SE1 SEC) (sd : ScatterDims SNC SE1 SEC) (δ : FVec Ideal SN .f32)
    (H : FVec Ideal SNC .bf16) (b : FVec Ideal SC .f32) (s d : IVec SE 32) : FVec Ideal SNC .f32 :=
  addf (mulf (dmat f δ)
      (Host.scatterAdd sd (zeros f) (col f d) (extf .f32 (Host.gather gd H (col f (normIdx f s))) f.lt)))
    (bias f b)

/-- The reference's layer after its matrix product `H`: gather, weight per edge, add per target, add the bias. -/
def refPost (gd : GatherDims SNC SE1 SEC) (sd : ScatterDims SNC SE1 SEC) (g1 : GatherDims SN SE1 SE)
    (hEC : SE1.BroadcastsInDim SEC (![0, 1] : Fin 2 → Fin SEC.rank)) (δ : FVec Ideal SN .f32)
    (H : FVec Ideal SNC .f32) (b : FVec Ideal SC .f32) (s d : IVec SE 32) : FVec Ideal SNC .f32 :=
  addf (Host.scatterAdd sd (zeros f) (col f d)
      (mulf (Host.gather gd H (col f (normIdx f s)))
        (broadcastInDim SEC ![0, 1] hEC (broadcastInDim SE1 ![0] f.bE_E1
          (mulf (Host.gather g1 δ (col f (normIdx f s))) (Host.gather g1 δ (col f (normIdx f d))))))))
    (bias f b)

/-! ## Reading the pieces at an index -/

theorem zeros_apply (j : SNC.Idx) : zeros f j = 0 :=
  (Cert.Lib.ColBroadcast.scalar_apply _ f.b0NC j).trans Ideal.ofBits_zero_f32

theorem col_apply {α : Type} (v : SE.Idx → α) (e : Fin 1700000) : col f v (startAt e) = v (ix1 e) :=
  broadcastInDim_apply ![0] f.bE_E1 v (startAt e) (ix1 e) (fun a => match a with
    | ⟨0, _⟩ => by show e.val = if (1700000 : ℕ) = 1 then 0 else e.val; rw [if_neg (by decide)])

theorem dmat_apply (δ : FVec Ideal SN .f32) (n : Fin 100000) (c : Fin 128) : dmat f δ (ix2 n c) = δ (ix1 n) :=
  Cert.Lib.ColBroadcast.col_apply (by decide) δ f.bN_N1 f.bN1_NC n c

theorem bias_apply (b : FVec Ideal SC .f32) (n : Fin 100000) (c : Fin 128) : bias f b (ix2 n c) = b (ix1 c) :=
  Cert.Lib.DenseLayer.bias_apply (by decide) b f.bC_1C f.b1C_NC n c

/-- The wrapped index at an edge. -/
theorem normIdx_apply (s : IVec SE 32) (i : SE.Idx) :
    normIdx f s i = if (s i).slt 0#32 then s i + 100000#32 else s i := by
  unfold normIdx
  rw [select_apply]
  show Scalar.select (IntOp.cmpi .slt (s i) (broadcastInDim SE ![] f.b0E (constantI S0 32 0#32) i))
      (IntOp.addi (s i) (broadcastInDim SE ![] f.b0E (constantI S0 32 100000#32) i)) (s i) = _
  rw [Cert.Lib.ColBroadcast.scalar_apply _ f.b0E i, Cert.Lib.ColBroadcast.scalar_apply _ f.b0E i]
  show Scalar.select (BitVec.ofBool ((s i).slt 0#32)) (s i + 100000#32) (s i) = _
  by_cases h : (s i).slt 0#32 = true
  · rw [h, if_pos rfl]; exact select_one _ _
  · rw [Bool.not_eq_true] at h
    rw [h]; exact (select_zero _ _).trans (if_neg (by decide)).symm

/-- The table row an edge's word reads: the word wrapped, read signed, clamped into the table. -/
def rowAt (s : IVec SE 32) (e : Fin 1700000) : Fin 100000 := rowOf (by decide) (col f (normIdx f s)) e

/-- A word that names a node, read signed and as it is, reads that node's row. -/
theorem rowAt_of_toInt (d : IVec SE 32) (e : Fin 1700000) (n : Fin 100000)
    (h : (d (ix1 e)).toInt = (n.val : ℤ)) : rowAt f d e = n := by
  have hn := n.isLt
  have hns : (d (ix1 e)).slt 0#32 = false := by
    rw [BitVec.slt, h]; simp
  refine Fin.ext ?_
  show min ((col f (normIdx f d)) (startAt e)).toInt.toNat (100000 - 1) = n.val
  rw [col_apply, normIdx_apply, hns, if_neg (by decide), h]
  omega

end Cert.Gcn

end
-- ==== Proof.GcnBridge.lean ====
/-
  The two spellings of the graph-convolution network are one function.

  `kerPost_apply` / `refPost_apply`: each program's layer at an entry `(n, c)` is a sum over ALL edges of the edge's
  gathered row entry (for the reference: times the edge's weight) when the edge's target word is `n`, and `0`
  otherwise, plus the bias at `c` (for the kernel: the sum scaled by `δ n` first). The dimension records enter
  through their fields. `layer_eq`: for real data the two agree and the entry is a real number (the law of
  `Cert.Lib.GcnNormLaw`: on an edge that lands on `n` the target's normalization is `δ n`). `net_eq`: two such layers with
  the rectifier between; the rectified first layer is real again, so the law applies a second time.
-/
import proofs.«170837_j10694468567653_2_alg».proof.Proof.GcnLayer

noncomputable section

open scoped BigOperators

namespace Cert.Gcn

open Idealize.ShloMosaic Idealize.ShloMosaic.ValueIdx
open Cert.Lib.RowGatherScatter (startAt rowOf)
open Cert.Lib.MatProd (prod)

/-- A gather of whole rows of the node table, one per edge: its dimension numbers. -/
structure RowGather (gd : GatherDims SNC SE1 SEC) : Prop where
  ho : gd.offsetDims = [1]
  hc : gd.collapsedSliceDims = [0]
  hob : gd.operandBatchingDims = []
  hsb : gd.startIndicesBatchingDims = []
  hm : gd.startIndexMap = [0]
  hv : gd.indexVectorDim = 1
  hs : gd.sliceSizes = ![1, 128]

/-- A gather of one entry of a per-node vector per edge: its dimension numbers. -/
structure VecGather (g1 : GatherDims SN SE1 SE) : Prop where
  ho : g1.offsetDims = []
  hc : g1.collapsedSliceDims = [0]
  hob : g1.operandBatchingDims = []
  hsb : g1.startIndicesBatchingDims = []
  hm : g1.startIndexMap = [0]
  hv : g1.indexVectorDim = 1
  hs : g1.sliceSizes = ![1]

/-- A scatter that adds whole rows into the node table, one per edge: its dimension numbers. -/
structure RowScatter (sd : ScatterDims SNC SE1 SEC) : Prop where
  h1 : sd.updateWindowDims = [1]
  h2 : sd.insertedWindowDims = [0]
  h3 : sd.scatterDimsToOperandDims = [0]
  h4 : sd.indexVectorDim = 1

/-- The shape facts hold (each is decided on the literal shapes). -/
theorem facts : Facts where
  b0E := by decide
  b0N := by decide
  b0NC := by decide
  bE_E1 := by decide
  bN_N1 := by decide
  bN1_NC := by decide
  bC_1C := by decide
  b1C_NC := by decide
  lt := by decide

variable (f : Facts)

/-! ## The rows added per target, at an entry -/

theorem scatterRows_apply (sd : ScatterDims SNC SE1 SEC) (hsd : RowScatter sd) (d : IVec SE 32)
    (U : FVec Ideal SEC .f32) (n : Fin 100000) (c : Fin 128) :
    Host.scatterAdd sd (zeros f) (col f d) U (ix2 n c)
      = ∑ e : Fin 1700000, if (d (ix1 e)).toInt = (n.val : ℤ) then U (ix2 e c) else 0 := by
  have e0 : Host.scatterAdd (F := Ideal) sd (zeros f) (col f d) U = Ideal.hostScatterAdd sd (zeros f) (col f d) U := rfl
  rw [e0, Cert.Lib.RowGatherScatter.hostScatterAdd_rows_apply sd hsd.h1 hsd.h2 hsd.h3 hsd.h4, zeros_apply, zero_add]
  refine Finset.sum_congr rfl fun e _ => ?_
  rw [col_apply]

/-- The kernel's layer at `(n, c)`. -/
theorem kerPost_apply (gd : GatherDims SNC SE1 SEC) (sd : ScatterDims SNC SE1 SEC) (hgd : RowGather gd)
    (hsd : RowScatter sd) (δ : FVec Ideal SN .f32) (H : FVec Ideal SNC .bf16) (b : FVec Ideal SC .f32)
    (s d : IVec SE 32) (n : Fin 100000) (c : Fin 128) :
    kerPost f gd sd δ H b s d (ix2 n c)
      = δ (ix1 n) * (∑ e : Fin 1700000, if (d (ix1 e)).toInt = (n.val : ℤ) then H (ix2 (rowAt f s e) c) else 0)
        + b (ix1 c) := by
  unfold kerPost
  rw [addf_apply, mulf_apply, dmat_apply, bias_apply, scatterRows_apply f sd hsd]
  refine congrArg (fun t => δ (ix1 n) * t + b (ix1 c)) (Finset.sum_congr rfl fun e _ => ?_)
  rw [extf_apply, Cert.Lib.RowGatherScatter.gather_rows_apply gd (by decide) hgd.ho hgd.hc hgd.hob hgd.hsb hgd.hm hgd.hv
    hgd.hs H (col f (normIdx f s)) e c]
  rfl

/-- The reference's layer at `(n, c)`. -/
theorem refPost_apply (gd : GatherDims SNC SE1 SEC) (sd : ScatterDims SNC SE1 SEC) (g1 : GatherDims SN SE1 SE)
    (hgd : RowGather gd) (hsd : RowScatter sd) (hg1 : VecGather g1)
    (hEC : SE1.BroadcastsInDim SEC (![0, 1] : Fin 2 → Fin SEC.rank)) (δ : FVec Ideal SN .f32)
    (H : FVec Ideal SNC .f32) (b : FVec Ideal SC .f32) (s d : IVec SE 32) (n : Fin 100000) (c : Fin 128) :
    refPost f gd sd g1 hEC δ H b s d (ix2 n c)
      = (∑ e : Fin 1700000, if (d (ix1 e)).toInt = (n.val : ℤ)
          then H (ix2 (rowAt f s e) c) * (δ (ix1 (rowAt f s e)) * δ (ix1 (rowAt f d e))) else 0)
        + b (ix1 c) := by
  unfold refPost
  rw [addf_apply, bias_apply, scatterRows_apply f sd hsd]
  refine congrArg (fun t => t + b (ix1 c)) (Finset.sum_congr rfl fun e _ => ?_)
  rw [mulf_apply, Cert.Lib.RowGatherScatter.gather_rows_apply gd (by decide) hgd.ho hgd.hc hgd.hob hgd.hsb hgd.hm hgd.hv
    hgd.hs H (col f (normIdx f s)) e c,
    Cert.Lib.ColBroadcast.col_apply (by decide) _ f.bE_E1 hEC e c, mulf_apply,
    Cert.Lib.VecGather.gather_vec_apply g1 (by decide) hg1.ho hg1.hc hg1.hob hg1.hsb hg1.hm hg1.hv hg1.hs δ (col f (normIdx f s)) e,
    Cert.Lib.VecGather.gather_vec_apply g1 (by decide) hg1.ho hg1.hc hg1.hob hg1.hsb hg1.hm hg1.hv hg1.hs δ (col f (normIdx f d)) e]
  rfl

/-- The kernel's scaled input at `(r, k)`. -/
theorem kerPre_apply (X : FVec Ideal SNC .f32) (δ : FVec Ideal SN .f32) (r : Fin 100000) (k : Fin 128) :
    kerPre f X δ (ix2 r k) = X (ix2 r k) * δ (ix1 r) := by
  unfold kerPre
  rw [mulf_apply, dmat_apply]

/-! ## One layer, joined -/

theorem layer_eq (gdK gdR : GatherDims SNC SE1 SEC) (sdK sdR : ScatterDims SNC SE1 SEC) (g1 : GatherDims SN SE1 SE)
    (hgdK : RowGather gdK) (hgdR : RowGather gdR) (hsdK : RowScatter sdK) (hsdR : RowScatter sdR) (hg1 : VecGather g1)
    (hEC : SE1.BroadcastsInDim SEC (![0, 1] : Fin 2 → Fin SEC.rank))
    (δ : FVec Ideal SN .f32) (X : FVec Ideal SNC .f32) (W : FVec Ideal SCC .f32) (b : FVec Ideal SC .f32)
    (s d : IVec SE 32)
    (hδ : ∀ i, ∃ r : ℝ, δ i = (r : EReal)) (hX : ∀ i, ∃ r : ℝ, X i = (r : EReal))
    (hW : ∀ i, ∃ r : ℝ, W i = (r : EReal)) (hb : ∀ i, ∃ r : ℝ, b i = (r : EReal)) :
    kerPost f gdK sdK δ (prod (kerPre f X δ) W) b s d = refPost f gdR sdR g1 hEC δ (prod X W) b s d
      ∧ ∀ j, ∃ r : ℝ, kerPost f gdK sdK δ (prod (kerPre f X δ) W) b s d j = (r : EReal) := by
  have key : ∀ (n : Fin 100000) (c : Fin 128),
      kerPost f gdK sdK δ (prod (kerPre f X δ) W) b s d (ix2 n c)
          = refPost f gdR sdR g1 hEC δ (prod X W) b s d (ix2 n c)
        ∧ ∃ r : ℝ, kerPost f gdK sdK δ (prod (kerPre f X δ) W) b s d (ix2 n c) = (r : EReal) := by
    intro n c
    rw [kerPost_apply f gdK sdK hgdK hsdK, refPost_apply f gdR sdR g1 hgdR hsdR hg1 hEC]
    simp only [Cert.Lib.MatProd.prod_apply, kerPre_apply]
    exact Cert.Lib.GcnNormLaw.layer_ereal (fun e : Fin 1700000 => (d (ix1 e)).toInt = (n.val : ℤ))
      (fun e k => X (ix2 (rowAt f s e) k)) (fun e => δ (ix1 (rowAt f s e))) (fun e => δ (ix1 (rowAt f d e)))
      (δ (ix1 n)) (fun k => W (ix2 k c)) (b (ix1 c))
      (fun _ _ => hX _) (fun _ => hδ _) (fun _ => hδ _) (hδ _) (fun _ => hW _) (hb _)
      (fun e he => by rw [rowAt_of_toInt f d e n he])
  constructor
  · funext j
    obtain ⟨n, c, rfl⟩ : ∃ (n : Fin 100000) (c : Fin 128), j = ix2 n c := ⟨j 0, j 1, eq_ix2 j⟩
    exact (key n c).1
  · intro j
    obtain ⟨n, c, rfl⟩ : ∃ (n : Fin 100000) (c : Fin 128), j = ix2 n c := ⟨j 0, j 1, eq_ix2 j⟩
    exact (key n c).2

/-! ## The rectifier keeps real numbers real -/

theorem relu_real (Y : FVec Ideal SNC .f32) (hY : ∀ j, ∃ r : ℝ, Y j = (r : EReal)) (j : SNC.Idx) :
    ∃ r : ℝ, relu f Y j = (r : EReal) := by
  obtain ⟨r, hr⟩ := hY j
  refine ⟨max r 0, ?_⟩
  unfold relu
  rw [maximumf_apply, zeros_apply, hr]
  exact Cert.Lib.GcnNormLaw.relu_real r

/-! ## The normalization is a real number at every node -/

theorem where_rsqrt_real (x : EReal) :
    ∃ r : ℝ, Scalar.select (Ideal.cmp .ogt x 0) (Ideal.rsqrt x) (0 : EReal) = (r : EReal) := by
  induction x using EReal.rec with
  | bot =>
    refine ⟨0, ?_⟩
    have : Ideal.cmp .ogt (⊥ : EReal) 0 = 0#1 := by simp [Ideal.cmp]
    rw [this, select_zero]; rfl
  | top =>
    refine ⟨0, ?_⟩
    have : Ideal.cmp .ogt (⊤ : EReal) 0 = 1#1 := by simp [Ideal.cmp]
    rw [this, select_one, Ideal.rsqrt_top]; rfl
  | coe r =>
    by_cases h : (0 : ℝ) < r
    · refine ⟨(Real.sqrt r)⁻¹, ?_⟩
      have : Ideal.cmp .ogt (r : EReal) 0 = 1#1 := by simp [Ideal.cmp, h]
      rw [this, select_one, Ideal.rsqrt_coe, if_neg (not_lt.mpr h.le), if_neg h.ne']
    · refine ⟨0, ?_⟩
      have : Ideal.cmp .ogt (r : EReal) 0 = 0#1 := by simp [Ideal.cmp, h]
      rw [this, select_zero]; rfl

/-- `where (y > 0) (rsqrt y) 0` at a node, for ANY vector `y` (stated over a variable, so that nothing is ever asked
    of the entry `y i` but its name). -/
theorem where_apply (y : FVec Ideal SN .f32) (i : SN.Idx) :
    select (cmpf .ogt y (broadcastInDim SN ![] f.b0N (constant (F := Ideal) S0 .f32 0x00000000#32))) (Host.rsqrt y)
        (broadcastInDim SN ![] f.b0N (id (constant (F := Ideal) S0 .f32 0x00000000#32))) i
      = Scalar.select (Ideal.cmp .ogt (y i) 0) (Ideal.rsqrt (y i)) (0 : EReal) := by
  rw [select_apply, cmpf_apply, Cert.Lib.ColBroadcast.scalar_apply _ f.b0N i,
    Cert.Lib.ColBroadcast.scalar_apply _ f.b0N i]
  show Scalar.select (Ideal.cmp .ogt (y i) (Ideal.ofBits .f32 0x00000000#32)) (Ideal.rsqrt (y i))
      (Ideal.ofBits .f32 0x00000000#32) = _
  rw [Ideal.ofBits_zero_f32]

theorem dinv_real (sd1 : ScatterDims SN SE1 SE) (d : IVec SE 32) (i : SN.Idx) :
    ∃ r : ℝ, dinv f sd1 d i = (r : EReal) := by
  unfold dinv
  rw [where_apply f]
  exact where_rsqrt_real _

/-! ## Two layers with the rectifier between -/

theorem net_eq (gdK gdR : GatherDims SNC SE1 SEC) (sdK sdR : ScatterDims SNC SE1 SEC) (g1 : GatherDims SN SE1 SE)
    (hgdK : RowGather gdK) (hgdR : RowGather gdR) (hsdK : RowScatter sdK) (hsdR : RowScatter sdR) (hg1 : VecGather g1)
    (hEC : SE1.BroadcastsInDim SEC (![0, 1] : Fin 2 → Fin SEC.rank))
    (δ : FVec Ideal SN .f32) (x : FVec Ideal SNC .f32) (W1 W2 : FVec Ideal SCC .f32) (b1 b2 : FVec Ideal SC .f32)
    (s d : IVec SE 32)
    (hδ : ∀ i, ∃ r : ℝ, δ i = (r : EReal)) (hx : ∀ i, ∃ r : ℝ, x i = (r : EReal))
    (hW1 : ∀ i, ∃ r : ℝ, W1 i = (r : EReal)) (hb1 : ∀ i, ∃ r : ℝ, b1 i = (r : EReal))
    (hW2 : ∀ i, ∃ r : ℝ, W2 i = (r : EReal)) (hb2 : ∀ i, ∃ r : ℝ, b2 i = (r : EReal)) :
    kerPost f gdK sdK δ (prod (kerPre f (relu f (kerPost f gdK sdK δ (prod (kerPre f x δ) W1) b1 s d)) δ) W2) b2 s d
      = refPost f gdR sdR g1 hEC δ (prod (relu f (refPost f gdR sdR g1 hEC δ (prod x W1) b1 s d)) W2) b2 s d := by
  obtain ⟨e1, r1⟩ := layer_eq f gdK gdR sdK sdR g1 hgdK hgdR hsdK hsdR hg1 hEC δ x W1 b1 s d hδ hx hW1 hb1
  rw [← e1]
  exact (layer_eq f gdK gdR sdK sdR g1 hgdK hgdR hsdK hsdR hg1 hEC δ _ W2 b2 s d hδ
    (relu_real f _ r1) hW2 hb2).1

end Cert.Gcn

end
-- ==== Proof.LibCat2.lean ====
/-
  A two-piece `concatenate` whose pieces a rewriting pass can reach.

  The library's `concatenate` takes its pieces as a list of (shape, array) pairs together with a fact about that
  list's shapes. The fact's TYPE mentions the list, so a rewriting pass that keeps terms well typed argument by
  argument must leave the list alone: unfolding a line of host operations that holds a `stablehlo.concatenate`
  (for example jax's `jnp.concatenate([edge_index[0], arange(n)])`) stops at its operands, and whatever they read —
  an argument buffer — stays hidden inside them. `cat2` is the same join with the fact stated over the two shapes
  only, so the two arrays are ordinary arguments; add `concatenate_pair` to the set of rewriting lemmas that unfolds
  the line (it holds by `rfl`) and the pass goes on into both pieces. Imports only the Idealize library.
-/
import Idealize.ShloMosaic.PureOps.ShapeOps

noncomputable section

namespace Cert.Lib.Cat2

open Idealize.ShloMosaic

/-- Two arrays joined along an axis, with the fact about the shapes kept apart from the arrays: the library's
    `concatenate` takes the pieces as a list of (shape, array) pairs and a fact about that list's shapes, so the fact
    mentions the arrays' list; here it mentions the two shapes only, and the arrays are ordinary arguments. -/
def cat2 {α : Type} {t : Shape} {a : Fin t.rank} {s₁ s₂ : Shape} (h : Shape.Concatenates [s₁, s₂] t a)
    (x₁ : s₁.Idx → α) (x₂ : s₂.Idx → α) : t.Idx → α :=
  concatenate t a [⟨s₁, x₁⟩, ⟨s₂, x₂⟩] h

/-- A `concatenate` of two pieces is `cat2` of them. -/
theorem concatenate_pair {α : Type} {t : Shape} {a : Fin t.rank} {s₁ s₂ : Shape} (h : Shape.Concatenates [s₁, s₂] t a)
    (x₁ : s₁.Idx → α) (x₂ : s₂.Idx → α) : concatenate t a [⟨s₁, x₁⟩, ⟨s₂, x₂⟩] h = cat2 h x₁ x₂ := rfl

end Cert.Lib.Cat2

end
-- ==== Proof.KerValue.lean ====
/-
  The kernel's value: what its result buffer holds after the run, as a function of the argument arrays.

  The buffers are followed through @main's segments. The first stretch of host operations builds the edge
  words (the given sources and targets, each followed by one loop per node), the in-degree, the normalization
  `δ` and the scaled input `x · δ`. Pallas call 0 leaves the product of that with `W1` (the ten row blocks tile the
  array). The next stretch gathers its rows per edge, adds them per target, scales by `δ`, adds the bias, rectifies
  and scales by `δ` again; call 1 multiplies by `W2`; the last stretch gathers, adds, scales, adds the bias and
  flattens. Nothing overwrites the edge words, the normalization column or an argument, so each is read at a later
  boundary as it was left. Named with the layer terms of `Cert.Gcn`, the result is `kerPost` of `kerPost`.
-/
import proofs.«170837_j10694468567653_2_alg».proof.Proof.KerRun
import proofs.«170837_j10694468567653_2_alg».proof.Proof.KerRegion0
import proofs.«170837_j10694468567653_2_alg».proof.Proof.KerRegion1
import proofs.«170837_j10694468567653_2_alg».proof.Proof.GcnBridge
import proofs.«170837_j10694468567653_2_alg».proof.Proof.LibCat2
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo
open Cert.Lib.MatProd (prod)

/-! ## The dimension records are the ones the layer lemmas ask for -/

theorem rowGather : Cert.Gcn.RowGather gather_S100000x128_S1700000x1_S1700000x128_1_0_n_n_0_1_1128 := ⟨rfl, rfl, rfl, rfl, rfl, rfl, rfl⟩
theorem rowScatter : Cert.Gcn.RowScatter scatter_S100000x128_S1700000x1_S1700000x128_1_0_0_1 := ⟨rfl, rfl, rfl, rfl⟩

variable (m : (ℓ : Loc nD τ sig) → Buf (Elt Ideal) ℓ) (ρ : Dev nD → PrngReg) (c : Dev nD)

/-! ## The graph and the normalization, from the argument arrays -/

/-- The source word per edge: row 0 of the edge list, then one loop per node. -/
def srcK : IVec S1700000 32 :=
  concatenate S1700000 0 [⟨S1600000, shapeCast S1600000 (extractStridedSlice S1x1600000 ![0, 0] (m ((c : Thread nD τ).loc main_arg1))
    slices_S2x1600000_S1x1600000_0_0) shapeCasts_S1x1600000_S1600000⟩, ⟨S100000, iotaInDim S100000 32 0⟩]
    concatenates_S1600000_S100000_S1700000_d0

/-- The target word per edge: row 1 of the edge list, then one loop per node. -/
def dstK : IVec S1700000 32 :=
  concatenate S1700000 0 [⟨S1600000, shapeCast S1600000 (extractStridedSlice S1x1600000 ![1, 0] (m ((c : Thread nD τ).loc main_arg1))
    slices_S2x1600000_S1x1600000_1_0) shapeCasts_S1x1600000_S1600000⟩, ⟨S100000, iotaInDim S100000 32 0⟩]
    concatenates_S1600000_S100000_S1700000_d0

/-- The normalization per node. -/
def dinvK : FVec Ideal S100000 .f32 := Cert.Gcn.dinv Cert.Gcn.facts scatter_S100000_S1700000x1_S1700000_n_0_0_1 (dstK m c)

/-- The same as the one column the host keeps. -/
def dcolK : FVec Ideal S100000x1 .f32 := broadcastInDim S100000x1 ![0] bcast_S100000_S100000x1_0 (dinvK m c)

/-- The first layer, before the rectifier. -/
def layer1K : FVec Ideal S100000x128 .f32 :=
  Cert.Gcn.kerPost Cert.Gcn.facts gather_S100000x128_S1700000x1_S1700000x128_1_0_n_n_0_1_1128 scatter_S100000x128_S1700000x1_S1700000x128_1_0_0_1 (dinvK m c)
    (prod (Cert.Gcn.kerPre Cert.Gcn.facts (m ((c : Thread nD τ).loc main_arg0)) (dinvK m c)) (m ((c : Thread nD τ).loc main_arg2))) (m ((c : Thread nD τ).loc main_arg3)) (srcK m c) (dstK m c)

/-- The second layer. -/
def layer2K : FVec Ideal S100000x128 .f32 :=
  Cert.Gcn.kerPost Cert.Gcn.facts gather_S100000x128_S1700000x1_S1700000x128_1_0_n_n_0_1_1128 scatter_S100000x128_S1700000x1_S1700000x128_1_0_0_1 (dinvK m c)
    (prod (Cert.Gcn.kerPre Cert.Gcn.facts (Cert.Gcn.relu Cert.Gcn.facts (layer1K m c)) (dinvK m c)) (m ((c : Thread nD τ).loc main_arg4))) (m ((c : Thread nD τ).loc main_arg5))
    (srcK m c) (dstK m c)

/-! ## One stretch of host operations at a time, from ANY contents `V`

Stated over a variable `V`, each line is a small term; the lines are then chained along the run. -/

section Lines

variable (V : Valuation τ sig (Elt Ideal))

/-- `where (deg > 0) (rsqrt deg) 0`, from the comparison, the reciprocal root and the zero already in their buffers. -/
theorem where_line : StableHlo.after hostOps0_1 V (Proc.devRef .tc main_v14)
    = select (V (Proc.devRef .tc main_v12) : IVec S100000 1) (V (Proc.devRef .tc main_v13) : FVec Ideal S100000 .f32)
        (broadcastInDim S100000 ![] bcast_S_S100000 (id (V (Proc.devRef .tc main_cst_2) : FVec Ideal S_ .f32))) := by
  after_results_simp
  rfl

/-- The normalization as a column. -/
theorem col_line : StableHlo.after hostOps0_2 V (Proc.devRef .tc main_v15)
    = broadcastInDim S100000x1 ![0] bcast_S100000_S100000x1_0 (V (Proc.devRef .tc main_v14) : FVec Ideal S100000 .f32) := by
  after_results_simp

/-- The first layer's input, scaled. -/
theorem pre1_line (δ : FVec Ideal S100000 .f32) (h14 : V (Proc.devRef .tc main_v14) = δ) : StableHlo.after hostOps0_2 V (Proc.devRef .tc main_v17)
    = Cert.Gcn.kerPre Cert.Gcn.facts (V (Proc.devRef .tc main_arg0) : FVec Ideal S100000x128 .f32) δ := by
  after_results_simp
  rw [h14]
  rfl

/-- The first layer after its matrix product. -/
theorem post1_line (δ : FVec Ideal S100000 .f32) (h15 : V (Proc.devRef .tc main_v15) = broadcastInDim S100000x1 ![0] bcast_S100000_S100000x1_0 δ) :
    StableHlo.after hostOps1 V (Proc.devRef .tc main_v34)
      = Cert.Gcn.kerPost Cert.Gcn.facts gather_S100000x128_S1700000x1_S1700000x128_1_0_n_n_0_1_1128 scatter_S100000x128_S1700000x1_S1700000x128_1_0_0_1 δ (V (Proc.devRef .tc main_v18) : FVec Ideal S100000x128 .bf16) (V (Proc.devRef .tc main_arg3) : FVec Ideal S128 .f32)
          (V (Proc.devRef .tc main_v3) : IVec S1700000 32) (V (Proc.devRef .tc main_v6) : IVec S1700000 32) := by
  after_results_simp
  rw [h15]
  rfl

/-- The rectifier. -/
theorem relu_line : StableHlo.after hostOps1_1 V (Proc.devRef .tc main_v35)
    = Cert.Gcn.relu Cert.Gcn.facts (V (Proc.devRef .tc main_v34) : FVec Ideal S100000x128 .f32) := by
  after_results_simp
  rfl

/-- The second layer's input, scaled. -/
theorem pre2_line (δ : FVec Ideal S100000 .f32) (h15 : V (Proc.devRef .tc main_v15) = broadcastInDim S100000x1 ![0] bcast_S100000_S100000x1_0 δ) :
    StableHlo.after hostOps1_2 V (Proc.devRef .tc main_v37)
      = Cert.Gcn.kerPre Cert.Gcn.facts (V (Proc.devRef .tc main_v35) : FVec Ideal S100000x128 .f32) δ := by
  after_results_simp
  rw [h15]
  rfl

/-- The second layer after its matrix product, flattened. -/
theorem post2_line (δ : FVec Ideal S100000 .f32) (h15 : V (Proc.devRef .tc main_v15) = broadcastInDim S100000x1 ![0] bcast_S100000_S100000x1_0 δ) :
    StableHlo.after hostOps2 V (Proc.devRef .tc main_v55)
      = shapeCast S12800000 (Cert.Gcn.kerPost Cert.Gcn.facts gather_S100000x128_S1700000x1_S1700000x128_1_0_n_n_0_1_1128 scatter_S100000x128_S1700000x1_S1700000x128_1_0_0_1 δ (V (Proc.devRef .tc main_v38) : FVec Ideal S100000x128 .bf16)
          (V (Proc.devRef .tc main_arg5) : FVec Ideal S128 .f32) (V (Proc.devRef .tc main_v3) : IVec S1700000 32) (V (Proc.devRef .tc main_v6) : IVec S1700000 32)) shapeCasts_S100000x128_S12800000 := by
  after_results_simp
  rw [h15]
  rfl

end Lines

/-! ## The first stretch: the edge words, and the degree's comparison and reciprocal root -/

theorem w1_v12 : W1 m ρ c (Proc.devRef .tc main_v12)
    = cmpf .ogt (Cert.Gcn.deg Cert.Gcn.facts scatter_S100000_S1700000x1_S1700000_n_0_0_1 (dstK m c))
        (broadcastInDim S100000 ![] bcast_S_S100000 (constant (F := Ideal) S_ .f32 0x00000000#32)) := by
  show StableHlo.after hostOps0 (W0 m ρ c) (Proc.devRef .tc main_v12) = _
  after_results_simp
  simp only [Cert.Lib.Cat2.concatenate_pair]
  after_results_simp
  rfl

theorem w1_v13 : W1 m ρ c (Proc.devRef .tc main_v13) = Host.rsqrt (Cert.Gcn.deg Cert.Gcn.facts scatter_S100000_S1700000x1_S1700000_n_0_0_1 (dstK m c)) := by
  show StableHlo.after hostOps0 (W0 m ρ c) (Proc.devRef .tc main_v13) = _
  after_results_simp
  simp only [Cert.Lib.Cat2.concatenate_pair]
  after_results_simp
  rfl

theorem w1_cst_2 : W1 m ρ c (Proc.devRef .tc main_cst_2) = constant (F := Ideal) S_ .f32 0x00000000#32 := by
  show StableHlo.after hostOps0 (W0 m ρ c) (Proc.devRef .tc main_cst_2) = _
  after_results_simp

/-- The normalization, after the `where`. -/
theorem w2_v14 : W2 m ρ c (Proc.devRef .tc main_v14) = dinvK m c := by
  show StableHlo.after hostOps0_1 (W1 m ρ c) (Proc.devRef .tc main_v14) = _
  rw [where_line, w1_v12 m ρ c, w1_v13 m ρ c, w1_cst_2 m ρ c]
  rfl

/-! ## At call 0's entry -/

theorem w3_v3 : W3 m ρ c (Proc.devRef .tc main_v3) = srcK m c := by
  show StableHlo.after hostOps0_2 (StableHlo.after hostOps0_1 (StableHlo.after hostOps0 (W0 m ρ c))) (Proc.devRef .tc main_v3) = _
  after_results_simp
  rfl
theorem w3_v6 : W3 m ρ c (Proc.devRef .tc main_v6) = dstK m c := by
  show StableHlo.after hostOps0_2 (StableHlo.after hostOps0_1 (StableHlo.after hostOps0 (W0 m ρ c))) (Proc.devRef .tc main_v6) = _
  after_results_simp
  rfl
theorem w3_arg2 : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  after_results_simp
theorem w3_arg3 : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results_simp
theorem w3_arg4 : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results_simp
theorem w3_arg5 : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results_simp
theorem w3_v15 : W3 m ρ c (Proc.devRef .tc main_v15) = dcolK m c := by
  show StableHlo.after hostOps0_2 (W2 m ρ c) (Proc.devRef .tc main_v15) = _
  rw [col_line, w2_v14 m ρ c]
  rfl
theorem w2_arg0 : W2 m ρ c (Proc.devRef .tc main_arg0) = (m ((c : Thread nD τ).loc main_arg0)) := by
  show StableHlo.after hostOps0_1 (StableHlo.after hostOps0 (W0 m ρ c)) (Proc.devRef .tc main_arg0) = _
  after_results_simp
theorem w3_v17 : W3 m ρ c (Proc.devRef .tc main_v17) = Cert.Gcn.kerPre Cert.Gcn.facts (m ((c : Thread nD τ).loc main_arg0)) (dinvK m c) := by
  show StableHlo.after hostOps0_2 (W2 m ρ c) (Proc.devRef .tc main_v17) = _
  rw [pre1_line (W2 m ρ c) (dinvK m c) (w2_v14 m ρ c), w2_arg0 m ρ c]

/-! ## At call 0's exit: its output array is the product; everything else is as entered -/

theorem w4_v18 : W4 m ρ c (Proc.devRef .tc main_v18)
    = prod (Cert.Gcn.kerPre Cert.Gcn.facts (m ((c : Thread nD τ).loc main_arg0)) (dinvK m c)) (m ((c : Thread nD τ).loc main_arg2)) :=
  (W4_arr m ρ c 2).trans ((Cert.KernelIdeal.Region0.final (V3 m ρ) c).trans
    (congrArg₂ (prod (M := 100000) (K := 128) (N := 128)) (w3_v17 m ρ c) (w3_arg2 m ρ c)))
theorem w4_v3 : W4 m ρ c (Proc.devRef .tc main_v3) = srcK m c :=
  (W4_of_ne m ρ c main_v3 (by decide)).trans (w3_v3 m ρ c)
theorem w4_v6 : W4 m ρ c (Proc.devRef .tc main_v6) = dstK m c :=
  (W4_of_ne m ρ c main_v6 (by decide)).trans (w3_v6 m ρ c)
theorem w4_v15 : W4 m ρ c (Proc.devRef .tc main_v15) = dcolK m c :=
  (W4_of_ne m ρ c main_v15 (by decide)).trans (w3_v15 m ρ c)

theorem w4_arg3 : W4 m ρ c (Proc.devRef .tc main_arg3) = (m ((c : Thread nD τ).loc main_arg3)) :=
  (W4_of_ne m ρ c main_arg3 (by decide)).trans (w3_arg3 m ρ c)
theorem w4_arg4 : W4 m ρ c (Proc.devRef .tc main_arg4) = (m ((c : Thread nD τ).loc main_arg4)) :=
  (W4_of_ne m ρ c main_arg4 (by decide)).trans (w3_arg4 m ρ c)
theorem w4_arg5 : W4 m ρ c (Proc.devRef .tc main_arg5) = (m ((c : Thread nD τ).loc main_arg5)) :=
  (W4_of_ne m ρ c main_arg5 (by decide)).trans (w3_arg5 m ρ c)

/-! ## Between the calls -/

theorem w5_v34 : W5 m ρ c (Proc.devRef .tc main_v34) = layer1K m c := by
  show StableHlo.after hostOps1 (W4 m ρ c) (Proc.devRef .tc main_v34) = _
  rw [post1_line (W4 m ρ c) (dinvK m c) (w4_v15 m ρ c), w4_v18 m ρ c, w4_arg3 m ρ c, w4_v3 m ρ c, w4_v6 m ρ c]
  rfl
theorem w6_v35 : W6 m ρ c (Proc.devRef .tc main_v35) = Cert.Gcn.relu Cert.Gcn.facts (layer1K m c) := by
  show StableHlo.after hostOps1_1 (W5 m ρ c) (Proc.devRef .tc main_v35) = _
  rw [relu_line, w5_v34 m ρ c]
theorem w6_v15 : W6 m ρ c (Proc.devRef .tc main_v15) = dcolK m c := by
  show StableHlo.after hostOps1_1 (StableHlo.after hostOps1 (W4 m ρ c)) (Proc.devRef .tc main_v15) = _
  after_results_simp
  exact w4_v15 m ρ c

/-! ## At call 1's entry -/

theorem w7_v3 : W7 m ρ c (Proc.devRef .tc main_v3) = srcK m c := by
  show StableHlo.after hostOps1_2 (StableHlo.after hostOps1_1 (StableHlo.after hostOps1 (W4 m ρ c))) (Proc.devRef .tc main_v3) = _
  after_results_simp
  exact w4_v3 m ρ c
theorem w7_v6 : W7 m ρ c (Proc.devRef .tc main_v6) = dstK m c := by
  show StableHlo.after hostOps1_2 (StableHlo.after hostOps1_1 (StableHlo.after hostOps1 (W4 m ρ c))) (Proc.devRef .tc main_v6) = _
  after_results_simp
  exact w4_v6 m ρ c
theorem w7_v15 : W7 m ρ c (Proc.devRef .tc main_v15) = dcolK m c := by
  show StableHlo.after hostOps1_2 (StableHlo.after hostOps1_1 (StableHlo.after hostOps1 (W4 m ρ c))) (Proc.devRef .tc main_v15) = _
  after_results_simp
  exact w4_v15 m ρ c

theorem w7_arg4 : W7 m ρ c (Proc.devRef .tc main_arg4) = (m ((c : Thread nD τ).loc main_arg4)) := by
  show StableHlo.after hostOps1_2 (StableHlo.after hostOps1_1 (StableHlo.after hostOps1 (W4 m ρ c))) (Proc.devRef .tc main_arg4) = _
  after_results_simp
  exact w4_arg4 m ρ c
theorem w7_arg5 : W7 m ρ c (Proc.devRef .tc main_arg5) = (m ((c : Thread nD τ).loc main_arg5)) := by
  show StableHlo.after hostOps1_2 (StableHlo.after hostOps1_1 (StableHlo.after hostOps1 (W4 m ρ c))) (Proc.devRef .tc main_arg5) = _
  after_results_simp
  exact w4_arg5 m ρ c
theorem w7_v37 : W7 m ρ c (Proc.devRef .tc main_v37)
    = Cert.Gcn.kerPre Cert.Gcn.facts (Cert.Gcn.relu Cert.Gcn.facts (layer1K m c)) (dinvK m c) := by
  show StableHlo.after hostOps1_2 (W6 m ρ c) (Proc.devRef .tc main_v37) = _
  rw [pre2_line (W6 m ρ c) (dinvK m c) (w6_v15 m ρ c), w6_v35 m ρ c]

/-! ## At call 1's exit -/

theorem w8_v38 : W8 m ρ c (Proc.devRef .tc main_v38)
    = prod (Cert.Gcn.kerPre Cert.Gcn.facts (Cert.Gcn.relu Cert.Gcn.facts (layer1K m c)) (dinvK m c)) (m ((c : Thread nD τ).loc main_arg4)) :=
  (W8_arr m ρ c 2).trans ((Cert.KernelIdeal.Region1.final (V7 m ρ) c).trans
    (congrArg₂ (prod (M := 100000) (K := 128) (N := 128)) (w7_v37 m ρ c) (w7_arg4 m ρ c)))
theorem w8_v3 : W8 m ρ c (Proc.devRef .tc main_v3) = srcK m c :=
  (W8_of_ne m ρ c main_v3 (by decide)).trans (w7_v3 m ρ c)
theorem w8_v6 : W8 m ρ c (Proc.devRef .tc main_v6) = dstK m c :=
  (W8_of_ne m ρ c main_v6 (by decide)).trans (w7_v6 m ρ c)
theorem w8_v15 : W8 m ρ c (Proc.devRef .tc main_v15) = dcolK m c :=
  (W8_of_ne m ρ c main_v15 (by decide)).trans (w7_v15 m ρ c)
theorem w8_arg5 : W8 m ρ c (Proc.devRef .tc main_arg5) = (m ((c : Thread nD τ).loc main_arg5)) :=
  (W8_of_ne m ρ c main_arg5 (by decide)).trans (w7_arg5 m ρ c)

/-! ## The result -/

/-- THE KERNEL'S VALUE: the second layer, flattened. -/
theorem w9_v55 : W9 m ρ c (Proc.devRef .tc main_v55)
    = shapeCast S12800000 (layer2K m c) shapeCasts_S100000x128_S12800000 := by
  show StableHlo.after hostOps2 (W8 m ρ c) (Proc.devRef .tc main_v55) = _
  rw [post2_line (W8 m ρ c) (dinvK m c) (w8_v15 m ρ c), w8_v38 m ρ c, w8_arg5 m ρ c, w8_v3 m ρ c, w8_v6 m ρ c]
  rfl

end Cert.KernelIdeal.Val

end
-- ==== Proof.RefValue.lean ====
/-
  The reference's value: the composed term of its run, named with the layer terms of `Cert.Gcn`.

  The reference builds the same edge words, in-degree and normalization `δ` as the kernel, multiplies `x` by `W1`,
  gathers a row per edge, weights it by `δ (source) · δ (target)`, adds per target, adds the bias, rectifies, and
  does the same again with `W2`. Its two matrix products are plain rows-times-columns products.
-/
import proofs.«170837_j10694468567653_2_alg».proof.Proof.RefRunP
import proofs.«170837_j10694468567653_2_alg».proof.Proof.GcnBridge

set_option maxRecDepth 16384

noncomputable section

namespace Cert.ReferenceIdeal.RefVal

open Cert.ReferenceIdeal Cert.ReferenceIdeal.Gen
open Idealize.ShloMosaic Idealize.ShloMosaic.TcCoe Idealize.SL.Sem
open Cert.Lib.MatProd (prod)

/-! ## The dimension records are the ones the layer lemmas ask for -/

theorem rowGather : Cert.Gcn.RowGather gather_S100000x128_S1700000x1_S1700000x128_1_0_n_n_0_1_1128 := ⟨rfl, rfl, rfl, rfl, rfl, rfl, rfl⟩
theorem rowScatter : Cert.Gcn.RowScatter scatter_S100000x128_S1700000x1_S1700000x128_1_0_0_1 := ⟨rfl, rfl, rfl, rfl⟩
theorem vecGather : Cert.Gcn.VecGather gather_S100000_S1700000x1_S1700000_n_0_n_n_0_1_1 := ⟨rfl, rfl, rfl, rfl, rfl, rfl, rfl⟩

/-- The reference's matrix product is rows times columns. -/
theorem dot_eq_prod (l : FVec Ideal S100000x128 .f32) (r : FVec Ideal S128x128 .f32) :
    Host.dotGeneral (φ₁ := .f32) (φ₂ := .f32) dot_S100000x128_S128x128_S100000x128_1_0_0_1_n_n none l r = prod l r :=
  Cert.Lib.MatProd.dotGeneral_eq_prod dot_S100000x128_S128x128_S100000x128_1_0_0_1_n_n rfl rfl (fun _ _ => rfl)
    (fun j q => dot_S100000x128_S128x128_S100000x128_1_0_0_1_n_n.lhsIdx_val_of_single rfl j q) (fun j q => dot_S100000x128_S128x128_S100000x128_1_0_0_1_n_n.rhsIdx_val_of_single rfl j q)
    (fun _ _ => rfl) none l r

variable (m : (ℓ : Loc nD τ sig) → Buf (Elt Ideal) ℓ) (c : Dev nD)

/-- The source word per edge: row 0 of the edge list, then one loop per node. -/
def srcR : IVec S1700000 32 :=
  concatenate S1700000 0 [⟨S1600000, shapeCast S1600000 (extractStridedSlice S1x1600000 ![0, 0] (m ((c.tc : Thread nD τ).loc main_arg1))
    slices_S2x1600000_S1x1600000_0_0) shapeCasts_S1x1600000_S1600000⟩, ⟨S100000, iotaInDim S100000 32 0⟩]
    concatenates_S1600000_S100000_S1700000_d0

/-- The target word per edge: row 1 of the edge list, then one loop per node. -/
def dstR : IVec S1700000 32 :=
  concatenate S1700000 0 [⟨S1600000, shapeCast S1600000 (extractStridedSlice S1x1600000 ![1, 0] (m ((c.tc : Thread nD τ).loc main_arg1))
    slices_S2x1600000_S1x1600000_1_0) shapeCasts_S1x1600000_S1600000⟩, ⟨S100000, iotaInDim S100000 32 0⟩]
    concatenates_S1600000_S100000_S1700000_d0

/-- The normalization per node. -/
def dinvR : FVec Ideal S100000 .f32 := Cert.Gcn.dinv Cert.Gcn.facts scatter_S100000_S1700000x1_S1700000_n_0_0_1 (dstR m c)

/-- The first layer, before the rectifier. -/
def layer1R : FVec Ideal S100000x128 .f32 :=
  Cert.Gcn.refPost Cert.Gcn.facts gather_S100000x128_S1700000x1_S1700000x128_1_0_n_n_0_1_1128 scatter_S100000x128_S1700000x1_S1700000x128_1_0_0_1 gather_S100000_S1700000x1_S1700000_n_0_n_n_0_1_1 bcast_S1700000x1_S1700000x128_0_1 (dinvR m c)
    (Host.dotGeneral (φ₁ := .f32) (φ₂ := .f32) dot_S100000x128_S128x128_S100000x128_1_0_0_1_n_n none (m ((c.tc : Thread nD τ).loc main_arg0)) (m ((c.tc : Thread nD τ).loc main_arg2))) (m ((c.tc : Thread nD τ).loc main_arg3)) (srcR m c) (dstR m c)

/-- The second layer. -/
def layer2R : FVec Ideal S100000x128 .f32 :=
  Cert.Gcn.refPost Cert.Gcn.facts gather_S100000x128_S1700000x1_S1700000x128_1_0_n_n_0_1_1128 scatter_S100000x128_S1700000x1_S1700000x128_1_0_0_1 gather_S100000_S1700000x1_S1700000_n_0_n_n_0_1_1 bcast_S1700000x1_S1700000x128_0_1 (dinvR m c)
    (Host.dotGeneral (φ₁ := .f32) (φ₂ := .f32) dot_S100000x128_S128x128_S100000x128_1_0_0_1_n_n none (Cert.Gcn.relu Cert.Gcn.facts (layer1R m c)) (m ((c.tc : Thread nD τ).loc main_arg4))) (m ((c.tc : Thread nD τ).loc main_arg5)) (srcR m c) (dstR m c)

/-- THE REFERENCE'S VALUE: the second layer, flattened. -/
theorem res_eq : Cert.ReferenceIdeal.ValueP.res_main_v88 (F := Ideal) m c
    = shapeCast S12800000 (layer2R m c) shapeCasts_S100000x128_S12800000 := by
  unfold Cert.ReferenceIdeal.ValueP.res_main_v88
  rfl

end Cert.ReferenceIdeal.RefVal

end
-- ==== Proof.Finite.lean ====
/-
  The precondition, read back: every float input holds real numbers.

  `finite_inputs` is the conjunction, over the five float inputs, of `all (|v| < +∞)`. A conjunction of one-bit words
  that is 1 has every word 1; an `all` that is 1 has a 1 at every index; and an extended real whose absolute value
  is below `+∞` is neither infinity, so it is a real number.
-/
import proofs.«170837_j10694468567653_2_alg».proof.Pre_finite_inputs
import proofs.«170837_j10694468567653_2_alg».proof.Proof.Gen.Pre_finite_inputs
import Idealize.ShloMosaic.Lib.ReduceAll
import Idealize.ShloMosaic.Lib.ValueIdx
import Idealize.ShloMosaic.PureOps.Ideal.Laws
import proofs.«170837_j10694468567653_2_alg».proof.Proof.LibColBroadcast

noncomputable section

namespace Cert.Finite

open Idealize.ShloMosaic Idealize.ShloMosaic.ValueIdx Cert.Pre_finite_inputs

instance : Subsingleton S_.Idx := ⟨fun a b => funext fun d => d.elim0⟩

/-- An extended real whose absolute value is below `+∞` is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => exact absurd h (by simp [Ideal.cmp])
  | top => exact absurd h (by simp [Ideal.cmp])
  | coe r => exact ⟨r, rfl⟩

/-- `all (|v| < +∞)` over any shape, as the predicate prints it. -/
def allFinite {s : Shape} {axes : List (Fin s.rank)} (v : FVec Ideal s .f32)
    (hb : S_.BroadcastsInDim s (![] : Fin 0 → Fin s.rank)) (hr : s.ReducesTo axes S_) (hu : 0 < S_.numel) : IVec S_ 1 :=
  Host.reduce IntOp.andi (cmpf .olt (Host.absf v) (broadcastInDim s ![] hb (constant (F := Ideal) S_ .f32 0x7F800000#32)))
    (constantI S_ 1 1#1) hr hu

theorem allFinite_real {s : Shape} {axes : List (Fin s.rank)} (v : FVec Ideal s .f32)
    (hb : S_.BroadcastsInDim s (![] : Fin 0 → Fin s.rank)) (hr : s.ReducesTo axes S_) (hu : 0 < S_.numel)
    (h : allFinite v hb hr hu ix0 = 1#1) (i : s.Idx) : ∃ r : ℝ, v i = (r : EReal) := by
  have hi := Host.reduce_andi_all _ _ hr hu ix0 h i
  rw [cmpf_apply, Cert.Lib.ColBroadcast.scalar_apply _ hb i, constant_apply] at hi
  exact real_of_abs_lt (v i) hi

/-- THE PRECONDITION READ BACK. -/
theorem reals_of_pre (x : FVec Ideal S100000x128 .f32) (e : IVec S2x1600000 32) (W1 : FVec Ideal S128x128 .f32)
    (b1 : FVec Ideal S128 .f32) (W2 : FVec Ideal S128x128 .f32) (b2 : FVec Ideal S128 .f32)
    (h : fn (F := Ideal) x e W1 b1 W2 b2 = fun _ => 1#1) :
    (∀ i, ∃ r : ℝ, x i = (r : EReal)) ∧ (∀ i, ∃ r : ℝ, W1 i = (r : EReal)) ∧ (∀ i, ∃ r : ℝ, b1 i = (r : EReal))
      ∧ (∀ i, ∃ r : ℝ, W2 i = (r : EReal)) ∧ (∀ i, ∃ r : ℝ, b2 i = (r : EReal)) := by
  have h0 : IntOp.andi (IntOp.andi (IntOp.andi (IntOp.andi
        (allFinite x Facts.bcast_S_S100000x128 Facts.reducesTo_S100000x128_S_d0_1 Facts.h_S_ ix0)
        (allFinite W1 Facts.bcast_S_S128x128 Facts.reducesTo_S128x128_S_d0_1 Facts.h_S_ ix0))
        (allFinite b1 Facts.bcast_S_S128 Facts.reducesTo_S128_S_d0 Facts.h_S_ ix0))
        (allFinite W2 Facts.bcast_S_S128x128 Facts.reducesTo_S128x128_S_d0_1 Facts.h_S_ ix0))
        (allFinite b2 Facts.bcast_S_S128 Facts.reducesTo_S128_S_d0 Facts.h_S_ ix0) = 1#1 := congrFun h ix0
  obtain ⟨h1, hb2⟩ := IntOp.andi_eq_one.mp h0
  obtain ⟨h2, hW2⟩ := IntOp.andi_eq_one.mp h1
  obtain ⟨h3, hb1⟩ := IntOp.andi_eq_one.mp h2
  obtain ⟨hx, hW1⟩ := IntOp.andi_eq_one.mp h3
  exact ⟨allFinite_real x _ _ _ hx, allFinite_real W1 _ _ _ hW1, allFinite_real b1 _ _ _ hb1,
    allFinite_real W2 _ _ _ hW2, allFinite_real b2 _ _ _ hb2⟩

end Cert.Finite

end
-- ==== Proof.lean ====
/-
  A two-layer graph convolution (100000 nodes, 1700000 edges with the self-loops, 128 features): the kernel against
  its reference, at the exact values.

  Both programs compute the in-degree of every node and the normalization `δ = where (deg > 0) (rsqrt deg) 0`, and per
  layer gather a row of a matrix product per edge and add it into the edge's target. The reference weights the
  gathered row of `x · W` by `δ (source) · δ (target)`. The kernel scales the rows of `x` by `δ` BEFORE the product
  (computed by its Pallas call, ten blocks of rows), and scales the sums per target by `δ` AFTER the addition. The two
  agree because the product is linear in a row and the target's factor is the same on every edge that lands on a node
  (`Cert.Lib.GcnNormLaw`): distributing a factor over a sum, which holds for real numbers — so the precondition is used: the
  float inputs are real, `δ` is a real number at every node whatever the degree holds, and the rectified first layer
  is real again. The integer inputs are arbitrary: a word that is not a node is clamped by a gather and dropped by a
  scatter, in the same way on both sides.

  The reference has no kernel, so its frame is its run with the result dropped. `preserves` is the proposition `True`
  as Defs.lean states it (it lists no rewrite of the idealization).
-/
import proofs.«170837_j10694468567653_2_alg».proof.Defs
import proofs.«170837_j10694468567653_2_alg».proof.Proof.Gen.Kernel
import proofs.«170837_j10694468567653_2_alg».proof.Proof.Gen.Kernel.Skeleton
import proofs.«170837_j10694468567653_2_alg».proof.Proof.Gen.Kernel.Launch
import proofs.«170837_j10694468567653_2_alg».proof.Proof.Gen.Kernel.Points
import proofs.«170837_j10694468567653_2_alg».proof.Proof.Gen.Kernel.Frame
import proofs.«170837_j10694468567653_2_alg».proof.Proof.Gen.KernelIdeal
import proofs.«170837_j10694468567653_2_alg».proof.Proof.Gen.KernelIdeal.Skeleton
import proofs.«170837_j10694468567653_2_alg».proof.Proof.Gen.KernelIdeal.Launch
import proofs.«170837_j10694468567653_2_alg».proof.Proof.Gen.KernelIdeal.Points
import proofs.«170837_j10694468567653_2_alg».proof.Proof.Gen.KernelIdeal.Frame
import proofs.«170837_j10694468567653_2_alg».proof.Proof.Gen.ReferenceIdeal
import proofs.«170837_j10694468567653_2_alg».proof.Proof.Gen.Pre_finite_inputs
import proofs.«170837_j10694468567653_2_alg».proof.Proof.KerValue
import proofs.«170837_j10694468567653_2_alg».proof.Proof.RefValue
import proofs.«170837_j10694468567653_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem

/-- From memories that agree on the arguments, the reference's second layer is the kernel's. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) = (fun _ => 1#1))
    (h0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))) (h1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))) (h2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2)))
    (h3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))) (h4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))) (h5 : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))) :
    Cert.ReferenceIdeal.RefVal.layer2R m' c = Cert.KernelIdeal.Val.layer2K m c := by
  obtain ⟨hx, hW1, hb1, hW2, hb2⟩ := Cert.Finite.reals_of_pre _ _ _ _ _ _ hpre
  have hs : Cert.ReferenceIdeal.RefVal.srcR m' c = Cert.KernelIdeal.Val.srcK m c := by
    unfold Cert.ReferenceIdeal.RefVal.srcR Cert.KernelIdeal.Val.srcK; rw [h1]
  have hd : Cert.ReferenceIdeal.RefVal.dstR m' c = Cert.KernelIdeal.Val.dstK m c := by
    unfold Cert.ReferenceIdeal.RefVal.dstR Cert.KernelIdeal.Val.dstK; rw [h1]
  have hδ : Cert.ReferenceIdeal.RefVal.dinvR m' c = Cert.KernelIdeal.Val.dinvK m c := by
    unfold Cert.ReferenceIdeal.RefVal.dinvR Cert.KernelIdeal.Val.dinvK; rw [hd]; rfl
  unfold Cert.ReferenceIdeal.RefVal.layer2R Cert.ReferenceIdeal.RefVal.layer1R Cert.KernelIdeal.Val.layer2K Cert.KernelIdeal.Val.layer1K
  rw [hs, hd, hδ, h0, h2, h3, h4, h5, Cert.ReferenceIdeal.RefVal.dot_eq_prod, Cert.ReferenceIdeal.RefVal.dot_eq_prod]
  exact (Cert.Gcn.net_eq Cert.Gcn.facts Cert.KernelIdeal.gather_S100000x128_S1700000x1_S1700000x128_1_0_n_n_0_1_1128 Cert.ReferenceIdeal.gather_S100000x128_S1700000x1_S1700000x128_1_0_n_n_0_1_1128 Cert.KernelIdeal.scatter_S100000x128_S1700000x1_S1700000x128_1_0_0_1 Cert.ReferenceIdeal.scatter_S100000x128_S1700000x1_S1700000x128_1_0_0_1 Cert.ReferenceIdeal.gather_S100000_S1700000x1_S1700000_n_0_n_n_0_1_1
    Cert.KernelIdeal.Val.rowGather Cert.ReferenceIdeal.RefVal.rowGather Cert.KernelIdeal.Val.rowScatter Cert.ReferenceIdeal.RefVal.rowScatter Cert.ReferenceIdeal.RefVal.vecGather
    Cert.ReferenceIdeal.Gen.bcast_S1700000x1_S1700000x128_0_1 (Cert.KernelIdeal.Val.dinvK m c) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg3)) (m ((c.tc : Thread Cert.KernelIdeal.nD Cert.KernelIdeal.τ).loc Cert.KernelIdeal.main_arg5))
    (Cert.KernelIdeal.Val.srcK m c) (Cert.KernelIdeal.Val.dstK m c) (fun i => Cert.Gcn.dinv_real _ _ _ i) hx hW1 hb1 hW2 hb2).symm

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Stated as `True` (Defs.lean lists no rewrite). -/
theorem preserves : Cert.preserves_Kernel_KernelIdeal := trivial

/-- Both programs end with the flattened second layer, one function of the arguments. -/
theorem algebraic : Cert.algebraic_KernelIdeal_ReferenceIdeal := by
  intro m ρ m' ρ' hpre hagree
  refine ⟨fun c => Cert.KernelIdeal.Gen.W9 m ρ c (Proc.devRef .tc Cert.KernelIdeal.main_v55), Cert.KernelIdeal.Val.run_named (F := Ideal) m ρ, ?_⟩
  refine (θ_run Cert.ReferenceIdeal.defs _ _).mono (fun _ h c => ⟨(h c).1.trans ?_, (h c).2⟩) (Cert.ReferenceIdeal.ValueP.run (F := Ideal) m' ρ')
  obtain ⟨h0, h1, h2, h3, h4, h5⟩ := hagree c
  show Cert.ReferenceIdeal.ValueP.res_main_v88 m' c = Cert.KernelIdeal.Gen.W9 m ρ c (Proc.devRef .tc Cert.KernelIdeal.main_v55)
  rw [Cert.ReferenceIdeal.RefVal.res_eq, Cert.KernelIdeal.Val.w9_v55, value_eq m m' c (hpre c) h0 h1 h2 h3 h4 h5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
